-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2x10 : Shape := ⟨3, ![1000000, 2, 10]⟩
abbrev S2x10x13 : Shape := ⟨3, ![2, 10, 13]⟩
abbrev S13x10 : Shape := ⟨2, ![13, 10]⟩
abbrev S_ : Shape := ⟨0, ![]⟩

class Facts : Prop where
  bcast_S_S1000000x2x10 : S_.BroadcastsInDim S1000000x2x10 (![] : Fin 0 → Fin S1000000x2x10.rank)
  reducesTo_S1000000x2x10_S_d0_1_2 : S1000000x2x10.ReducesTo [0, 1, 2] S_
  h_S_ : 0 < S_.numel
  bcast_S_S2x10x13 : S_.BroadcastsInDim S2x10x13 (![] : Fin 0 → Fin S2x10x13.rank)
  reducesTo_S2x10x13_S_d0_1_2 : S2x10x13.ReducesTo [0, 1, 2] S_
  bcast_S_S13x10 : S_.BroadcastsInDim S13x10 (![] : Fin 0 → Fin S13x10.rank)
  reducesTo_S13x10_S_d0_1 : S13x10.ReducesTo [0, 1] S_

variable [Facts]

def fn_part1 {F : FTy → Type} [FloatOps F] (main_arg4 : FVec F S13x10 .f32) (main_arg5 : FVec F S13x10 .f32) (main_v13 : IVec S_ 1) (main_v16 : IVec S13x10 1) : IVec S_ 1 :=
  let main_c_5 : IVec S_ 1 := constantI S_ 1 1#1
  let main_v17 : IVec S_ 1 := (fun x v => Host.reduce IntOp.andi x v reducesTo_S13x10_S_d0_1 h_S_) main_v16 main_c_5
  let main_v18 : IVec S_ 1 := andi main_v13 main_v17
  let main_v19 : FVec F S13x10 .f32 := Host.absf main_arg4
  let main_cst_6 : FVec F S_ .f32 := constant S_ .f32 0x7F800000#32
  let main_v20 : FVec F S13x10 .f32 := broadcastInDim S13x10 ![] bcast_S_S13x10 main_cst_6
  let main_v21 : IVec S13x10 1 := cmpf .olt main_v19 main_v20
  let main_c_7 : IVec S_ 1 := constantI S_ 1 1#1
  let main_v22 : IVec S_ 1 := (fun x v => Host.reduce IntOp.andi x v reducesTo_S13x10_S_d0_1 h_S_) main_v21 main_c_7
  let main_v23 : IVec S_ 1 := andi main_v18 main_v22
  let main_v24 : FVec F S13x10 .f32 := Host.absf main_arg5
  let main_cst_8 : FVec F S_ .f32 := constant S_ .f32 0x7F800000#32
  let main_v25 : FVec F S13x10 .f32 := broadcastInDim S13x10 ![] bcast_S_S13x10 main_cst_8
  let main_v26 : IVec S13x10 1 := cmpf .olt main_v24 main_v25
  let main_c_9 : IVec S_ 1 := constantI S_ 1 1#1
  let main_v27 : IVec S_ 1 := (fun x v => Host.reduce IntOp.andi x v reducesTo_S13x10_S_d0_1 h_S_) main_v26 main_c_9
  let main_v28 : IVec S_ 1 := andi main_v23 main_v27
  main_v28

def fn {F : FTy → Type} [FloatOps F] (main_arg0 : FVec F S1000000x2x10 .f32) (main_arg1 : FVec F S2x10x13 .f32) (main_arg2 : FVec F S13x10 .f32) (main_arg3 : FVec F S13x10 .f32) (main_arg4 : FVec F S13x10 .f32) (main_arg5 : FVec F S13x10 .f32) : IVec S_ 1 :=
  let main_v0 : FVec F S1000000x2x10 .f32 := Host.absf main_arg0
  let main_cst : FVec F S_ .f32 := constant S_ .f32 0x7F800000#32
  let main_v1 : FVec F S1000000x2x10 .f32 := broadcastInDim S1000000x2x10 ![] bcast_S_S1000000x2x10 main_cst
  let main_v2 : IVec S1000000x2x10 1 := cmpf .olt main_v0 main_v1
  let main_c : IVec S_ 1 := constantI S_ 1 1#1
  let main_v3 : IVec S_ 1 := (fun x v => Host.reduce IntOp.andi x v reducesTo_S1000000x2x10_S_d0_1_2 h_S_) main_v2 main_c
  let main_v4 : FVec F S2x10x13 .f32 := Host.absf main_arg1
  let main_cst_0 : FVec F S_ .f32 := constant S_ .f32 0x7F800000#32
  let main_v5 : FVec F S2x10x13 .f32 := broadcastInDim S2x10x13 ![] bcast_S_S2x10x13 main_cst_0
  let main_v6 : IVec S2x10x13 1 := cmpf .olt main_v4 main_v5
  let main_c_1 : IVec S_ 1 := constantI S_ 1 1#1
  let main_v7 : IVec S_ 1 := (fun x v => Host.reduce IntOp.andi x v reducesTo_S2x10x13_S_d0_1_2 h_S_) main_v6 main_c_1
  let main_v8 : IVec S_ 1 := andi main_v3 main_v7
  let main_v9 : FVec F S13x10 .f32 := Host.absf main_arg2
  let main_cst_2 : FVec F S_ .f32 := constant S_ .f32 0x7F800000#32
  let main_v10 : FVec F S13x10 .f32 := broadcastInDim S13x10 ![] bcast_S_S13x10 main_cst_2
  let main_v11 : IVec S13x10 1 := cmpf .olt main_v9 main_v10
  let main_c_3 : IVec S_ 1 := constantI S_ 1 1#1
  let main_v12 : IVec S_ 1 := (fun x v => Host.reduce IntOp.andi x v reducesTo_S13x10_S_d0_1 h_S_) main_v11 main_c_3
  let main_v13 : IVec S_ 1 := andi main_v8 main_v12
  let main_v14 : FVec F S13x10 .f32 := Host.absf main_arg3
  let main_cst_4 : FVec F S_ .f32 := constant S_ .f32 0x7F800000#32
  let main_v15 : FVec F S13x10 .f32 := broadcastInDim S13x10 ![] bcast_S_S13x10 main_cst_4
  let main_v16 : IVec S13x10 1 := cmpf .olt main_v14 main_v15
  fn_part1 (F := F) main_arg4 main_arg5 main_v13 main_v16
-- ==== Kernel.lean ====
abbrev S1000000x2x10 : Shape := ⟨3, ![1000000, 2, 10]⟩
abbrev S2x10x13 : Shape := ⟨3, ![2, 10, 13]⟩
abbrev S13x10 : Shape := ⟨2, ![13, 10]⟩
abbrev S1x10x13 : Shape := ⟨3, ![1, 10, 13]⟩
abbrev S10x13 : Shape := ⟨2, ![10, 13]⟩
abbrev S1000000x2x13x10 : Shape := ⟨4, ![1000000, 2, 13, 10]⟩
abbrev S1000000x13 : Shape := ⟨2, ![1000000, 13]⟩
abbrev S400x2x10 : Shape := ⟨3, ![400, 2, 10]⟩
abbrev S400x2x13x10 : Shape := ⟨4, ![400, 2, 13, 10]⟩
abbrev S400x13 : Shape := ⟨2, ![400, 13]⟩
abbrev S400x1x10 : Shape := ⟨3, ![400, 1, 10]⟩
abbrev S400x10 : Shape := ⟨2, ![400, 10]⟩
abbrev S400x13x1 : Shape := ⟨3, ![400, 13, 1]⟩
abbrev S1x13x10 : Shape := ⟨3, ![1, 13, 10]⟩
abbrev S400x13x10 : Shape := ⟨3, ![400, 13, 10]⟩
abbrev S400x1x13x10 : Shape := ⟨4, ![400, 1, 13, 10]⟩

abbrev nBuf : Space → Nat
  | .hbm => 18
  | .vmem => 12
  | .smem => 0
  | _ => 0

abbrev bufTy : (tb : Table) → Fin (tcTables nBuf tb) → BufTy
  | .hbm, ⟨0, _⟩ => ⟨S1000000x2x10, .f32⟩
  | .hbm, ⟨1, _⟩ => ⟨S2x10x13, .f32⟩
  | .hbm, ⟨2, _⟩ => ⟨S13x10, .f32⟩
  | .hbm, ⟨3, _⟩ => ⟨S13x10, .f32⟩
  | .hbm, ⟨4, _⟩ => ⟨S13x10, .f32⟩
  | .hbm, ⟨5, _⟩ => ⟨S13x10, .f32⟩
  | .hbm, ⟨6, _⟩ => ⟨S1x10x13, .f32⟩
  | .hbm, ⟨7, _⟩ => ⟨S10x13, .f32⟩
  | .hbm, ⟨8, _⟩ => ⟨S13x10, .f32⟩
  | .hbm, ⟨9, _⟩ => ⟨S1x10x13, .f32⟩
  | .hbm, ⟨10, _⟩ => ⟨S10x13, .f32⟩
  | .hbm, ⟨11, _⟩ => ⟨S13x10, .f32⟩
  | .hbm, ⟨12, _⟩ => ⟨S10x13, .f32⟩
  | .hbm, ⟨13, _⟩ => ⟨S10x13, .f32⟩
  | .hbm, ⟨14, _⟩ => ⟨S10x13, .f32⟩
  | .hbm, ⟨15, _⟩ => ⟨S10x13, .f32⟩
  | .hbm, ⟨16, _⟩ => ⟨S1000000x2x13x10, .f32⟩
  | .hbm, ⟨17, _⟩ => ⟨S1000000x13, .f32⟩
  | .local _ .vmem, ⟨0, _⟩ => ⟨S400x2x10, .f32⟩
  | .local _ .vmem, ⟨1, _⟩ => ⟨S400x2x10, .f32⟩
  | .local _ .vmem, ⟨2, _⟩ => ⟨S13x10, .f32⟩
  | .local _ .vmem, ⟨3, _⟩ => ⟨S13x10, .f32⟩
  | .local _ .vmem, ⟨4, _⟩ => ⟨S10x13, .f32⟩
  | .local _ .vmem, ⟨5, _⟩ => ⟨S10x13, .f32⟩
  | .local _ .vmem, ⟨6, _⟩ => ⟨S10x13, .f32⟩
  | .local _ .vmem, ⟨7, _⟩ => ⟨S10x13, .f32⟩
  | .local _ .vmem, ⟨8, _⟩ => ⟨S400x2x13x10, .f32⟩
  | .local _ .vmem, ⟨9, _⟩ => ⟨S400x2x13x10, .f32⟩
  | .local _ .vmem, ⟨10, _⟩ => ⟨S400x13, .f32⟩
  | .local _ .vmem, ⟨11, _⟩ => ⟨S400x13, .f32⟩
  | _, _ => ⟨S1000000x2x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![2500], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x2x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S13x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S13x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x13 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x13 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x13 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x13 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x2x13x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x13 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x10x13_S1x10x13_0_0_0 : S2x10x13.Slices ![0, 0, 0] S1x10x13
  shapeCasts_S1x10x13_S10x13 : S1x10x13.ShapeCasts S10x13
  transposes_S10x13_S13x10_1_0 : S10x13.Transposes [1, 0] S13x10
  slices_S2x10x13_S1x10x13_1_0_0 : S2x10x13.Slices ![1, 0, 0] S1x10x13
  transposes_S13x10_S10x13_1_0 : S13x10.Transposes [1, 0] S10x13
  inb_S400x2x10_S400x1x10_0_0_0 : ∀ a, (![0, 0, 0] : Fin 3 → Nat) a + S400x1x10.size a ≤ S400x2x10.size a
  h_S400x1x10 : 0 < S400x1x10.numel
  shapeCasts_S400x1x10_S400x10 : S400x1x10.ShapeCasts S400x10
  inb_S400x2x10_S400x1x10_0_1_0 : ∀ a, (![0, 1, 0] : Fin 3 → Nat) a + S400x1x10.size a ≤ S400x2x10.size a
  inb_S10x13_S10x13_0_0 : ∀ a, (![0, 0] : Fin 2 → Nat) a + S10x13.size a ≤ S10x13.size a
  h_S10x13 : 0 < S10x13.numel
  shapeCasts_S10x13_S10x13 : S10x13.ShapeCasts S10x13
  inb_S13x10_S13x10_0_0 : ∀ a, (![0, 0] : Fin 2 → Nat) a + S13x10.size a ≤ S13x10.size a
  h_S13x10 : 0 < S13x10.numel
  shapeCasts_S13x10_S13x10 : S13x10.ShapeCasts S13x10
  shapeCasts_S400x13_S400x13x1 : S400x13.ShapeCasts S400x13x1
  shapeCasts_S13x10_S1x13x10 : S13x10.ShapeCasts S1x13x10
  broadcasts_S400x13x1_S400x13x10 : S400x13x1.Broadcasts S400x13x10
  broadcasts_S1x13x10_S400x13x10 : S1x13x10.Broadcasts S400x13x10
  inb_S400x2x13x10_S400x1x13x10_0_0_0_0 : ∀ a, (![0, 0, 0, 0] : Fin 4 → Nat) a + S400x1x13x10.size a ≤ S400x2x13x10.size a
  h_S400x1x13x10 : 0 < S400x1x13x10.numel
  shapeCasts_S400x1x13x10_S400x13x10 : S400x1x13x10.ShapeCasts S400x13x10
  shapeCasts_S400x13x10_S400x1x13x10 : S400x13x10.ShapeCasts S400x1x13x10
  inb_S400x2x13x10_S400x1x13x10_0_1_0_0 : ∀ a, (![0, 1, 0, 0] : Fin 4 → Nat) a + S400x1x13x10.size a ≤ S400x2x13x10.size a
  inb_S400x13_S400x13_0_0 : ∀ a, (![0, 0] : Fin 2 → Nat) a + S400x13.size a ≤ S400x13.size a
  h_S400x13 : 0 < S400x13.numel
  dot_S400x10_S10x13_S400x13_1_0_0_1_n_n_wf : DotDims.WF S400x10 S10x13 S400x13 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x2x10.size a ≤ S1000000x2x10.size a
  hwx0_0 : ∀ i : grid0.Coords, EltTy.bits .f32 = 32 ∨ (Rect.block (s := S1000000x2x10) S400x2x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S13x10.size a ≤ S13x10.size a
  hwx0_1 : ∀ i : grid0.Coords, EltTy.bits .f32 = 32 ∨ (Rect.block (s := S13x10) S13x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S13x10.size a ≤ S13x10.size a
  hwx0_2 : ∀ i : grid0.Coords, EltTy.bits .f32 = 32 ∨ (Rect.block (s := S13x10) S13x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x13.size a ≤ S10x13.size a
  hwx0_3 : ∀ i : grid0.Coords, EltTy.bits .f32 = 32 ∨ (Rect.block (s := S10x13) S10x13.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x13.size a ≤ S10x13.size a
  hwx0_4 : ∀ i : grid0.Coords, EltTy.bits .f32 = 32 ∨ (Rect.block (s := S10x13) S10x13.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x13.size a ≤ S10x13.size a
  hwx0_5 : ∀ i : grid0.Coords, EltTy.bits .f32 = 32 ∨ (Rect.block (s := S10x13) S10x13.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10x13.size a ≤ S10x13.size a
  hwx0_6 : ∀ i : grid0.Coords, EltTy.bits .f32 = 32 ∨ (Rect.block (s := S10x13) S10x13.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x2x13x10.size a ≤ S1000000x2x13x10.size a
  hwx0_7 : ∀ i : grid0.Coords, EltTy.bits .f32 = 32 ∨ (Rect.block (s := S1000000x2x13x10) S400x2x13x10.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x13.size a ≤ S1000000x13.size a
  hwx0_8 : ∀ i : grid0.Coords, EltTy.bits .f32 = 32 ∨ (Rect.block (s := S1000000x13) S400x13.size (cc0_transform_8 i) (hinb0_8 i)).WholeWords (EltTy.packing .f32)

variable [Facts₀]

def dot_S400x10_S10x13_S400x13_1_0_0_1_n_n : DotDims S400x10 S10x13 S400x13 where
  lhsContracting := [1]
  rhsContracting := [0]
  lhsNonContracting := [0]
  rhsNonContracting := [1]
  lhsBatch := []
  rhsBatch := []
  wf := dot_S400x10_S10x13_S400x13_1_0_0_1_n_n_wf

abbrev win0_0 : Pipeline.Window sig grid0 :=
  Pipeline.Window.ofSpec (Memref.whole main_arg0) S400x2x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S13x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S13x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S10x13.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S10x13.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S10x13.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S10x13.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S400x2x13x10.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S400x13.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1000000x2x10 : Shape := ⟨3, ![1000000, 2, 10]⟩
abbrev S2x10x13 : Shape := ⟨3, ![2, 10, 13]⟩
abbrev S13x10 : Shape := ⟨2, ![13, 10]⟩
abbrev S1000000x1x10 : Shape := ⟨3, ![1000000, 1, 10]⟩
abbrev S1000000x10 : Shape := ⟨2, ![1000000, 10]⟩
abbrev S1000000x13 : Shape := ⟨2, ![1000000, 13]⟩
abbrev S_ : Shape := ⟨0, ![]⟩
abbrev S1x10x13 : Shape := ⟨3, ![1, 10, 13]⟩
abbrev S10x13 : Shape := ⟨2, ![10, 13]⟩
abbrev S1000000x13x1 : Shape := ⟨3, ![1000000, 13, 1]⟩
abbrev S1x13x10 : Shape := ⟨3, ![1, 13, 10]⟩
abbrev S1000000x13x10 : Shape := ⟨3, ![1000000, 13, 10]⟩
abbrev S1000000x1x13x10 : Shape := ⟨4, ![1000000, 1, 13, 10]⟩
abbrev S1000000x2x13x10 : Shape := ⟨4, ![1000000, 2, 13, 10]⟩

abbrev nBuf : Space → Nat
  | .hbm => 58
  | .vmem => 0
  | .smem => 0
  | _ => 0

abbrev bufTy : (tb : Table) → Fin (tcTables nBuf tb) → BufTy
  | .hbm, ⟨0, _⟩ => ⟨S1000000x2x10, .f32⟩
  | .hbm, ⟨1, _⟩ => ⟨S2x10x13, .f32⟩
  | .hbm, ⟨2, _⟩ => ⟨S13x10, .f32⟩
  | .hbm, ⟨3, _⟩ => ⟨S13x10, .f32⟩
  | .hbm, ⟨4, _⟩ => ⟨S13x10, .f32⟩
  | .hbm, ⟨5, _⟩ => ⟨S13x10, .f32⟩
  | .hbm, ⟨6, _⟩ => ⟨S1000000x1x10, .f32⟩
  | .hbm, ⟨7, _⟩ => ⟨S1000000x10, .f32⟩
  | .hbm, ⟨8, _⟩ => ⟨S1000000x1x10, .f32⟩
  | .hbm, ⟨9, _⟩ => ⟨S1000000x10, .f32⟩
  | .hbm, ⟨10, _⟩ => ⟨S1000000x13, .f32⟩
  | .hbm, ⟨11, _⟩ => ⟨S1000000x13, .f32⟩
  | .hbm, ⟨12, _⟩ => ⟨S1000000x13, .f32⟩
  | .hbm, ⟨13, _⟩ => ⟨S1000000x13, .f32⟩
  | .hbm, ⟨14, _⟩ => ⟨S1000000x13, .f32⟩
  | .hbm, ⟨15, _⟩ => ⟨S1000000x13, .f32⟩
  | .hbm, ⟨16, _⟩ => ⟨S1000000x13, .f32⟩
  | .hbm, ⟨17, _⟩ => ⟨S_, .f32⟩
  | .hbm, ⟨18, _⟩ => ⟨S1000000x13, .f32⟩
  | .hbm, ⟨19, _⟩ => ⟨S1000000x13, .f32⟩
  | .hbm, ⟨20, _⟩ => ⟨S1x10x13, .f32⟩
  | .hbm, ⟨21, _⟩ => ⟨S10x13, .f32⟩
  | .hbm, ⟨22, _⟩ => ⟨S13x10, .f32⟩
  | .hbm, ⟨23, _⟩ => ⟨S1x10x13, .f32⟩
  | .hbm, ⟨24, _⟩ => ⟨S10x13, .f32⟩
  | .hbm, ⟨25, _⟩ => ⟨S13x10, .f32⟩
  | .hbm, ⟨26, _⟩ => ⟨S1000000x13, .f32⟩
  | .hbm, ⟨27, _⟩ => ⟨S1000000x13x1, .f32⟩
  | .hbm, ⟨28, _⟩ => ⟨S1000000x13, .f32⟩
  | .hbm, ⟨29, _⟩ => ⟨S1000000x13, .f32⟩
  | .hbm, ⟨30, _⟩ => ⟨S1000000x13x1, .f32⟩
  | .hbm, ⟨31, _⟩ => ⟨S1000000x13, .f32⟩
  | .hbm, ⟨32, _⟩ => ⟨S1000000x13, .f32⟩
  | .hbm, ⟨33, _⟩ => ⟨S1000000x13x1, .f32⟩
  | .hbm, ⟨34, _⟩ => ⟨S1000000x13, .f32⟩
  | .hbm, ⟨35, _⟩ => ⟨S1000000x13x1, .f32⟩
  | .hbm, ⟨36, _⟩ => ⟨S1x13x10, .f32⟩
  | .hbm, ⟨37, _⟩ => ⟨S1000000x13x10, .f32⟩
  | .hbm, ⟨38, _⟩ => ⟨S1000000x13x10, .f32⟩
  | .hbm, ⟨39, _⟩ => ⟨S1000000x13x10, .f32⟩
  | .hbm, ⟨40, _⟩ => ⟨S1x13x10, .f32⟩
  | .hbm, ⟨41, _⟩ => ⟨S1000000x13x10, .f32⟩
  | .hbm, ⟨42, _⟩ => ⟨S1000000x13x10, .f32⟩
  | .hbm, ⟨43, _⟩ => ⟨S1000000x13x10, .f32⟩
  | .hbm, ⟨44, _⟩ => ⟨S1000000x13x10, .f32⟩
  | .hbm, ⟨45, _⟩ => ⟨S1x13x10, .f32⟩
  | .hbm, ⟨46, _⟩ => ⟨S1000000x13x10, .f32⟩
  | .hbm, ⟨47, _⟩ => ⟨S1000000x13x10, .f32⟩
  | .hbm, ⟨48, _⟩ => ⟨S1000000x13x10, .f32⟩
  | .hbm, ⟨49, _⟩ => ⟨S1x13x10, .f32⟩
  | .hbm, ⟨50, _⟩ => ⟨S1000000x13x10, .f32⟩
  | .hbm, ⟨51, _⟩ => ⟨S1000000x13x10, .f32⟩
  | .hbm, ⟨52, _⟩ => ⟨S1000000x13x10, .f32⟩
  | .hbm, ⟨53, _⟩ => ⟨S1000000x13x10, .f32⟩
  | .hbm, ⟨54, _⟩ => ⟨S1000000x1x13x10, .f32⟩
  | .hbm, ⟨55, _⟩ => ⟨S1000000x1x13x10, .f32⟩
  | .hbm, ⟨56, _⟩ => ⟨S1000000x2x13x10, .f32⟩
  | .hbm, ⟨57, _⟩ => ⟨S1000000x13, .f32⟩
  | _, _ => ⟨S1000000x2x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩

abbrev nD : Nat := 1
abbrev τ : Topo := Topo.v7x

variable {F : FTy → Type} [FloatOps F]

class Facts₀ : Prop where
  slices_S1000000x2x10_S1000000x1x10_0_0_0 : S1000000x2x10.Slices ![0, 0, 0] S1000000x1x10
  shapeCasts_S1000000x1x10_S1000000x10 : S1000000x1x10.ShapeCasts S1000000x10
  slices_S1000000x2x10_S1000000x1x10_0_1_0 : S1000000x2x10.Slices ![0, 1, 0] S1000000x1x10
  bcast_S_S1000000x13 : S_.BroadcastsInDim S1000000x13 (![] : Fin 0 → Fin S1000000x13.rank)
  slices_S2x10x13_S1x10x13_0_0_0 : S2x10x13.Slices ![0, 0, 0] S1x10x13
  shapeCasts_S1x10x13_S10x13 : S1x10x13.ShapeCasts S10x13
  transposes_S10x13_S13x10_1_0 : S10x13.Transposes [1, 0] S13x10
  slices_S2x10x13_S1x10x13_1_0_0 : S2x10x13.Slices ![1, 0, 0] S1x10x13
  bcast_S1000000x13_S1000000x13x1_0_1 : S1000000x13.BroadcastsInDim S1000000x13x1 (![0, 1] : Fin 2 → Fin S1000000x13x1.rank)
  bcast_S13x10_S1x13x10_1_2 : S13x10.BroadcastsInDim S1x13x10 (![1, 2] : Fin 2 → Fin S1x13x10.rank)
  bcast_S1000000x13x1_S1000000x13x10_0_1_2 : S1000000x13x1.BroadcastsInDim S1000000x13x10 (![0, 1, 2] : Fin 3 → Fin S1000000x13x10.rank)
  bcast_S1x13x10_S1000000x13x10_0_1_2 : S1x13x10.BroadcastsInDim S1000000x13x10 (![0, 1, 2] : Fin 3 → Fin S1000000x13x10.rank)
  bcast_S1000000x13x10_S1000000x1x13x10_0_2_3 : S1000000x13x10.BroadcastsInDim S1000000x1x13x10 (![0, 2, 3] : Fin 3 → Fin S1000000x1x13x10.rank)
  concatenates_S1000000x1x13x10_S1000000x1x13x10_S1000000x2x13x10_d1 : Shape.Concatenates [S1000000x1x13x10, S1000000x1x13x10] S1000000x2x13x10 1
  dot_S1000000x10_S13x10_S1000000x13_1_1_0_0_n_n_wf : DotDims.WF S1000000x10 S13x10 S1000000x13 [1] [1] [0] [0] [] []

variable [Facts₀]

def dot_S1000000x10_S13x10_S1000000x13_1_1_0_0_n_n : DotDims S1000000x10 S13x10 S1000000x13 where
  lhsContracting := [1]
  rhsContracting := [1]
  lhsNonContracting := [0]
  rhsNonContracting := [0]
  lhsBatch := []
  rhsBatch := []
  wf := dot_S1000000x10_S13x10_S1000000x13_1_1_0_0_n_n_wf

class Facts : Prop extends Facts₀ where

variable [Facts]
-- ==== Proof.Spec.lean ====
/-
  The mathematics both programs compute, stated once over plain families of extended reals.

  An element `b` of a mesh has two rows of ten node coordinates, `x b 0` and `x b 1`. Four weight tables
  `W11 W12 W21 W22` (thirteen quadrature points by ten nodes) give the entries of a 2×2 Jacobian at every
  quadrature point `g`:
      j11 = Σₖ x[b,0,k]·W11[g,k]   j12 = Σₖ x[b,1,k]·W12[g,k]
      j21 = Σₖ x[b,0,k]·W21[g,k]   j22 = Σₖ x[b,1,k]·W22[g,k].
  Its determinant is `j11·j22 − j21·j12`, the reciprocal `1 / det` is the extended reals' quotient, and the
  rows of the inverse Jacobian, `(j11, −j21)/det` and `(−j12, j22)/det`, combine the two tables `N1 N2` of
  shape-function derivatives:
      nx[b,0,g,n] = (j11/det)·N1[g,n] + (−j21/det)·N2[g,n]
      nx[b,1,g,n] = (−j12/det)·N1[g,n] + (j22/det)·N2[g,n].
  The second result is `|det|`. Nothing here needs the inputs to be finite: both programs perform these
  operations in this order, so the two sides agree on every extended real.
-/
import Idealize.ShloMosaic.PureOps.Ideal
import Idealize.ShloMosaic.PureOps.Ideal.Laws
import Idealize.ShloMosaic.Lib.ValueIdx

noncomputable section

namespace Cert.Jacobian

open Idealize.ShloMosaic Idealize.ShloMosaic.ValueIdx

variable {B : Nat}

/-- Entry `(b, g)` of coordinate row `s` against a weight table: `Σₖ x[b,s,k]·W[g,k]`. -/
def jac (x : Fin B → Fin 2 → Fin 10 → EReal) (W : Fin 13 → Fin 10 → EReal) (s : Fin 2) (b : Fin B) (g : Fin 13) : EReal :=
  ∑ k : Fin 10, x b s k * W g k

/-- The Jacobian's determinant at element `b` and quadrature point `g`: `j11·j22 − j21·j12`. -/
def det (x : Fin B → Fin 2 → Fin 10 → EReal) (W11 W12 W21 W22 : Fin 13 → Fin 10 → EReal) (b : Fin B) (g : Fin 13) : EReal :=
  jac x W11 0 b g * jac x W22 1 b g - jac x W21 0 b g * jac x W12 1 b g

/-- Its reciprocal, the quotient of the float one by the determinant on the extended reals. -/
def invDet (x : Fin B → Fin 2 → Fin 10 → EReal) (W11 W12 W21 W22 : Fin 13 → Fin 10 → EReal) (b : Fin B) (g : Fin 13) : EReal :=
  Ideal.div (Ideal.ofBits .f32 0x3F800000#32) (det x W11 W12 W21 W22 b g)

/-- The physical shape-function derivatives: row `s` of the inverse Jacobian applied to the two reference tables. -/
def nx (x : Fin B → Fin 2 → Fin 10 → EReal) (N1 N2 W11 W12 W21 W22 : Fin 13 → Fin 10 → EReal)
    (b : Fin B) (s : Fin 2) (g : Fin 13) (n : Fin 10) : EReal :=
  if s.val = 0 then
    jac x W11 0 b g * invDet x W11 W12 W21 W22 b g * N1 g n + -(jac x W21 0 b g) * invDet x W11 W12 W21 W22 b g * N2 g n
  else
    -(jac x W12 1 b g) * invDet x W11 W12 W21 W22 b g * N1 g n + jac x W22 1 b g * invDet x W11 W12 W21 W22 b g * N2 g n

/-- The determinant's absolute value, as the larger of it and its negative. -/
def absDet (x : Fin B → Fin 2 → Fin 10 → EReal) (W11 W12 W21 W22 : Fin 13 → Fin 10 → EReal) (b : Fin B) (g : Fin 13) : EReal :=
  max (det x W11 W12 W21 W22 b g) (-(det x W11 W12 W21 W22 b g))

/-! ## Each result at element `b` reads only that element's coordinates -/

section Congr
variable {B' : Nat} {x : Fin B → Fin 2 → Fin 10 → EReal} {x' : Fin B' → Fin 2 → Fin 10 → EReal} {b : Fin B} {b' : Fin B'}

theorem jac_congr (h : ∀ s k, x b s k = x' b' s k) (W : Fin 13 → Fin 10 → EReal) (s : Fin 2) (g : Fin 13) :
    jac x W s b g = jac x' W s b' g :=
  Finset.sum_congr rfl fun k _ => by rw [h]

theorem nx_congr (h : ∀ s k, x b s k = x' b' s k) (N1 N2 W11 W12 W21 W22 : Fin 13 → Fin 10 → EReal)
    (s : Fin 2) (g : Fin 13) (n : Fin 10) :
    nx x N1 N2 W11 W12 W21 W22 b s g n = nx x' N1 N2 W11 W12 W21 W22 b' s g n := by
  unfold nx invDet det
  simp only [jac_congr h]

theorem absDet_congr (h : ∀ s k, x b s k = x' b' s k) (W11 W12 W21 W22 : Fin 13 → Fin 10 → EReal) (g : Fin 13) :
    absDet x W11 W12 W21 W22 b g = absDet x' W11 W12 W21 W22 b' g := by
  unfold absDet det
  simp only [jac_congr h]

end Congr

/-! ## The two results as whole arrays of the six argument arrays

`a0` holds the coordinates (element, row, node); `a1` the two reference tables stored node-major (table, node,
quadrature point), so the table entries the formulas use are read transposed; `a2 … a5` the weight tables
`W11 W12 W21 W22` (quadrature point, node). -/

/-- The derivatives array, 1000000×2×13×10. -/
def nxArr (a0 : (⟨3, ![1000000, 2, 10]⟩ : Shape).Idx → EReal) (a1 : (⟨3, ![2, 10, 13]⟩ : Shape).Idx → EReal)
    (a2 a3 a4 a5 : (⟨2, ![13, 10]⟩ : Shape).Idx → EReal) : (⟨4, ![1000000, 2, 13, 10]⟩ : Shape).Idx → EReal := fun i =>
  nx (fun b s k => a0 (ix3 b s k)) (fun g n => a1 (ix3 0 n g)) (fun g n => a1 (ix3 1 n g))
    (fun g k => a2 (ix2 g k)) (fun g k => a3 (ix2 g k)) (fun g k => a4 (ix2 g k)) (fun g k => a5 (ix2 g k))
    (i 0) (i 1) (i 2) (i 3)

/-- The absolute determinants, 1000000×13. -/
def absDetArr (a0 : (⟨3, ![1000000, 2, 10]⟩ : Shape).Idx → EReal)
    (a2 a3 a4 a5 : (⟨2, ![13, 10]⟩ : Shape).Idx → EReal) : (⟨2, ![1000000, 13]⟩ : Shape).Idx → EReal := fun i =>
  absDet (fun b s k => a0 (ix3 b s k))
    (fun g k => a2 (ix2 g k)) (fun g k => a3 (ix2 g k)) (fun g k => a4 (ix2 g k)) (fun g k => a5 (ix2 g k))
    (i 0) (i 1)

end Cert.Jacobian

end
-- ==== Proof.KernelBlock.lean ====
/-
  What the kernel's body leaves in its two output blocks, entry by entry, from the blocks it loads.
-/
import proofs.«121779_j16793322127488_2_alg».proof.Proof.Gen.KernelIdeal.Frame
import proofs.«121779_j16793322127488_2_alg».proof.Proof.Spec
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.Jacobian

/-- The matrix product's left operand index on its free axis is the result's row, -/
theorem lhs_free (i : S400x13.Idx) (q : dot_S400x10_S10x13_S400x13_1_0_0_1_n_n.contr.Idx) :
    (dot_S400x10_S10x13_S400x13_1_0_0_1_n_n.lhsIdx i q 0).val = (i 0).val := by
  unfold DotDims.lhsIdx
  rw [dif_neg (show ¬(0 : Fin S400x10.rank) ∈ dot_S400x10_S10x13_S400x13_1_0_0_1_n_n.lhsBatch by decide),
    dif_pos (show (0 : Fin S400x10.rank) ∈ dot_S400x10_S10x13_S400x13_1_0_0_1_n_n.lhsNonContracting by decide)]
  rfl

/-- on its summed axis the summation index; -/
theorem lhs_sum (i : S400x13.Idx) (q : dot_S400x10_S10x13_S400x13_1_0_0_1_n_n.contr.Idx) :
    (dot_S400x10_S10x13_S400x13_1_0_0_1_n_n.lhsIdx i q 1).val = (q ⟨0, by decide⟩).val :=
  dot_S400x10_S10x13_S400x13_1_0_0_1_n_n.lhsIdx_val_of_single rfl i q

/-- the right operand's on its summed axis the summation index, -/
theorem rhs_sum (i : S400x13.Idx) (q : dot_S400x10_S10x13_S400x13_1_0_0_1_n_n.contr.Idx) :
    (dot_S400x10_S10x13_S400x13_1_0_0_1_n_n.rhsIdx i q 0).val = (q ⟨0, by decide⟩).val :=
  dot_S400x10_S10x13_S400x13_1_0_0_1_n_n.rhsIdx_val_of_single rfl i q

/-- and on its free axis the result's column. -/
theorem rhs_free (i : S400x13.Idx) (q : dot_S400x10_S10x13_S400x13_1_0_0_1_n_n.contr.Idx) :
    (dot_S400x10_S10x13_S400x13_1_0_0_1_n_n.rhsIdx i q 1).val = (i 1).val := by
  unfold DotDims.rhsIdx
  rw [dif_neg (show ¬(1 : Fin S10x13.rank) ∈ dot_S400x10_S10x13_S400x13_1_0_0_1_n_n.rhsBatch by decide),
    dif_pos (show (1 : Fin S10x13.rank) ∈ dot_S400x10_S10x13_S400x13_1_0_0_1_n_n.rhsNonContracting by decide)]
  rfl

/-- A 400×1×10 slab of coordinates viewed 400×10, multiplied into zeros with a 10×13 table:
    entry `(r, g)` is `Σₖ a[r,0,k]·w[k,g]`. -/
theorem dot_entry (a : Vec Ideal S400x1x10 .f32) (w : Vec Ideal S10x13 .f32) (r : Fin 400) (g : Fin 13) :
    matmul (F := Ideal) (φ₁ := .f32) (φ₂ := .f32) dot_S400x10_S10x13_S400x13_1_0_0_1_n_n (some .fp32)
      (shapeCast S400x10 a shapeCasts_S400x1x10_S400x10)
      (shapeCast S10x13 w shapeCasts_S10x13_S10x13) (constant (F := Ideal) S400x13 .f32 0x00000000#32) (ix2 r g)
    = ∑ k : Fin 10, a (ix3 r 0 k) * w (ix2 k g) := by
  rw [shapeCast_self]
  unfold matmul
  rw [Ideal.matmul_constant_zero_apply,
    ← Equiv.sum_comp (contrEquiv1 dot_S400x10_S10x13_S400x13_1_0_0_1_n_n 10 rfl rfl).symm]
  refine Finset.sum_congr rfl fun k _ => ?_
  have hk := contrEquiv1_symm_val dot_S400x10_S10x13_S400x13_1_0_0_1_n_n 10 rfl rfl k
  have el : dot_S400x10_S10x13_S400x13_1_0_0_1_n_n.lhsIdx (ix2 r g)
      ((contrEquiv1 dot_S400x10_S10x13_S400x13_1_0_0_1_n_n 10 rfl rfl).symm k) = (ix2 r k : S400x10.Idx) :=
    funext fun d => Fin.ext (by
      match d with
      | ⟨0, _⟩ => exact lhs_free _ _
      | ⟨1, _⟩ => exact (lhs_sum _ _).trans hk)
  have er : dot_S400x10_S10x13_S400x13_1_0_0_1_n_n.rhsIdx (ix2 r g)
      ((contrEquiv1 dot_S400x10_S10x13_S400x13_1_0_0_1_n_n 10 rfl rfl).symm k) = (ix2 k g : S10x13.Idx) :=
    funext fun d => Fin.ext (by
      match d with
      | ⟨0, _⟩ => exact (rhs_sum _ _).trans hk
      | ⟨1, _⟩ => exact rhs_free _ _)
  rw [el, er]
  refine congrArg (· * w (ix2 k g)) ?_
  refine shapeCast_apply a shapeCasts_S400x1x10_S400x10 (ix2 r k) (ix3 r 0 k) ?_
  rw [Shape.rowMajor_val_three, Shape.rowMajor_val_two]
  show (r.val * 1 + 0) * 10 + k.val = r.val * 10 + k.val
  omega

/-! ## The loaded slabs and tables as plain families -/

/-- A block of coordinates, element by row by node. -/
abbrev rows (x0 : Vec Ideal S400x2x10 .f32) : Fin 400 → Fin 2 → Fin 10 → EReal := fun r s k => x0 (ix3 r s k)

/-- A 13×10 table, quadrature point by node. -/
abbrev tab (w : Vec Ideal S13x10 .f32) : Fin 13 → Fin 10 → EReal := fun g n => w (ix2 g n)

/-- A 10×13 table read transposed, quadrature point by node. -/
abbrev tabT (w : Vec Ideal S10x13 .f32) : Fin 13 → Fin 10 → EReal := fun g k => w (ix2 k g)

/-- The load of coordinate row 0 of the block reads its entries `(r, 0, k)`, -/
theorem ld_row0 (x0 : Vec Ideal S400x2x10 .f32) (r : Fin 400) (k : Fin 10) :
    View.ld x0 r0_0 (ix3 r 0 k) = x0 (ix3 r 0 k) := by
  refine congrArg x0 (funext fun d => Fin.ext ?_)
  match d with
  | ⟨0, _⟩ => show 0 + 1 * r.val = r.val; omega
  | ⟨1, _⟩ => rfl
  | ⟨2, _⟩ => show 0 + 1 * k.val = k.val; omega

/-- and the load of row 1 its entries `(r, 1, k)`. -/
theorem ld_row1 (x0 : Vec Ideal S400x2x10 .f32) (r : Fin 400) (k : Fin 10) :
    View.ld x0 r0_1 (ix3 r 0 k) = x0 (ix3 r 1 k) := by
  refine congrArg x0 (funext fun d => Fin.ext ?_)
  match d with
  | ⟨0, _⟩ => show 0 + 1 * r.val = r.val; omega
  | ⟨1, _⟩ => rfl
  | ⟨2, _⟩ => show 0 + 1 * k.val = k.val; omega

/-- The load of a whole 10×13 table reads the table, -/
theorem ld_tabT (w : Vec Ideal S10x13 .f32) : View.ld w r0_2 = w :=
  View.ld_unit_zero (funext fun d => by match d with | ⟨0, _⟩ => rfl | ⟨1, _⟩ => rfl) _ w

/-- and so does the load of a whole 13×10 table. -/
theorem ld_tab (w : Vec Ideal S13x10 .f32) : View.ld w r0_3 = w :=
  View.ld_unit_zero (funext fun d => by match d with | ⟨0, _⟩ => rfl | ⟨1, _⟩ => rfl) _ w

/-! ## The four Jacobian entries, the determinant and its reciprocal at `(r, g)` -/

variable (x0 : Vec Ideal S400x2x10 .f32) (w11 w12 w21 w22 : Vec Ideal S10x13 .f32)

theorem j11_entry (r : Fin 400) (g : Fin 13) :
    k0_pay6 (View.ld x0 r0_0) w11 (ix2 r g) = jac (rows x0) (tabT w11) 0 r g := by
  unfold k0_pay6 k0_pay4
  refine (dot_entry _ _ r g).trans ?_
  unfold jac
  exact Finset.sum_congr rfl fun k _ => congrArg (· * w11 (ix2 k g)) (ld_row0 x0 r k)

theorem j12_entry (r : Fin 400) (g : Fin 13) :
    k0_pay7 (View.ld x0 r0_1) w12 (ix2 r g) = jac (rows x0) (tabT w12) 1 r g := by
  unfold k0_pay7 k0_pay5
  refine (dot_entry _ _ r g).trans ?_
  unfold jac
  exact Finset.sum_congr rfl fun k _ => congrArg (· * w12 (ix2 k g)) (ld_row1 x0 r k)

theorem j21_entry (r : Fin 400) (g : Fin 13) :
    k0_pay8 (View.ld x0 r0_0) w21 (ix2 r g) = jac (rows x0) (tabT w21) 0 r g := by
  unfold k0_pay8 k0_pay4
  refine (dot_entry _ _ r g).trans ?_
  unfold jac
  exact Finset.sum_congr rfl fun k _ => congrArg (· * w21 (ix2 k g)) (ld_row0 x0 r k)

theorem j22_entry (r : Fin 400) (g : Fin 13) :
    k0_pay9 (View.ld x0 r0_1) w22 (ix2 r g) = jac (rows x0) (tabT w22) 1 r g := by
  unfold k0_pay9 k0_pay5
  refine (dot_entry _ _ r g).trans ?_
  unfold jac
  exact Finset.sum_congr rfl fun k _ => congrArg (· * w22 (ix2 k g)) (ld_row1 x0 r k)

/-- The determinant `j11·j22 − j21·j12`. -/
theorem det_entry (r : Fin 400) (g : Fin 13) :
    k0_pay10 (View.ld x0 r0_0) (View.ld x0 r0_1) w11 w12 w21 w22 (ix2 r g)
      = det (rows x0) (tabT w11) (tabT w12) (tabT w21) (tabT w22) r g := by
  unfold k0_pay10
  show k0_pay6 (View.ld x0 r0_0) w11 (ix2 r g) * k0_pay9 (View.ld x0 r0_1) w22 (ix2 r g)
      - k0_pay8 (View.ld x0 r0_0) w21 (ix2 r g) * k0_pay7 (View.ld x0 r0_1) w12 (ix2 r g) = _
  rw [j11_entry, j22_entry, j21_entry, j12_entry]
  rfl

/-- Its reciprocal `1 / det`. -/
theorem inv_entry (r : Fin 400) (g : Fin 13) :
    k0_pay11 (View.ld x0 r0_0) (View.ld x0 r0_1) w11 w12 w21 w22 (ix2 r g)
      = invDet (rows x0) (tabT w11) (tabT w12) (tabT w21) (tabT w22) r g := by
  unfold k0_pay11
  show Ideal.div (Ideal.ofBits .f32 0x3F800000#32)
      (k0_pay10 (View.ld x0 r0_0) (View.ld x0 r0_1) w11 w12 w21 w22 (ix2 r g)) = _
  rw [det_entry]
  rfl

/-! ## Layout steps of the body, read at an index -/

/-- A 400×13 array viewed as 400×13×1 columns. -/
theorem col_entry (v : Vec Ideal S400x13 .f32) (r : Fin 400) (g : Fin 13) :
    shapeCast S400x13x1 v shapeCasts_S400x13_S400x13x1 (ix3 r g 0) = v (ix2 r g) := by
  refine shapeCast_apply v shapeCasts_S400x13_S400x13x1 (ix3 r g 0) (ix2 r g) ?_
  rw [Shape.rowMajor_val_three, Shape.rowMajor_val_two]
  show r.val * 13 + g.val = (r.val * 13 + g.val) * 1 + 0
  omega

/-- A 400×13×10 array viewed with a unit axis after the first. -/
theorem unit_axis_entry (v : Vec Ideal S400x13x10 .f32) (r : Fin 400) (g : Fin 13) (n : Fin 10) :
    shapeCast S400x1x13x10 v shapeCasts_S400x13x10_S400x1x13x10 (ix4 r 0 g n) = v (ix3 r g n) := by
  refine shapeCast_apply v shapeCasts_S400x13x10_S400x1x13x10 (ix4 r 0 g n) (ix3 r g n) ?_
  rw [Shape.rowMajor_val_four, Shape.rowMajor_val_three]
  show (r.val * 13 + g.val) * 10 + n.val = ((r.val * 1 + 0) * 13 + g.val) * 10 + n.val
  omega

/-- A column array spread along the node axis. -/
theorem spread_col_entry (v : Vec Ideal S400x13x1 .f32) (r : Fin 400) (g : Fin 13) (n : Fin 10) :
    broadcastTo S400x13x10 v broadcasts_S400x13x1_S400x13x10 (ix3 r g n) = v (ix3 r g 0) := by
  refine broadcastTo_apply v broadcasts_S400x13x1_S400x13x10 (ix3 r g n) (ix3 r g 0) fun a => ?_
  match a with
  | ⟨0, _⟩ => show r.val = if (400 : Nat) = 1 then 0 else r.val; rw [if_neg (by decide)]
  | ⟨1, _⟩ => show g.val = if (13 : Nat) = 1 then 0 else g.val; rw [if_neg (by decide)]
  | ⟨2, _⟩ => show 0 = if (1 : Nat) = 1 then 0 else n.val; rw [if_pos rfl]

/-- A 13×10 table given a leading unit axis and spread along the element axis. -/
theorem spread_tab_entry (v : Vec Ideal S13x10 .f32) (r : Fin 400) (g : Fin 13) (n : Fin 10) :
    broadcastTo S400x13x10 (shapeCast S1x13x10 v shapeCasts_S13x10_S1x13x10) broadcasts_S1x13x10_S400x13x10 (ix3 r g n)
      = v (ix2 g n) := by
  refine (broadcastTo_apply _ broadcasts_S1x13x10_S400x13x10 (ix3 r g n) (ix3 0 g n) fun a => ?_).trans ?_
  · match a with
    | ⟨0, _⟩ => show 0 = if (1 : Nat) = 1 then 0 else r.val; rw [if_pos rfl]
    | ⟨1, _⟩ => show g.val = if (13 : Nat) = 1 then 0 else g.val; rw [if_neg (by decide)]
    | ⟨2, _⟩ => show n.val = if (10 : Nat) = 1 then 0 else n.val; rw [if_neg (by decide)]
  · refine shapeCast_apply v shapeCasts_S13x10_S1x13x10 (ix3 0 g n) (ix2 g n) ?_
    rw [Shape.rowMajor_val_three, Shape.rowMajor_val_two]
    show g.val * 10 + n.val = (0 * 13 + g.val) * 10 + n.val
    omega

/-- The first stored slab: `c[r,g]·p[g,n] + a[r,g]·q[g,n]`, the column array `c` first. -/
theorem slab0_entry (a : FVec Ideal S400x13 .f32) (p q : FVec Ideal S13x10 .f32) (c : FVec Ideal S400x13x1 .f32)
    (r : Fin 400) (g : Fin 13) (n : Fin 10) :
    k0_pay1 a p q c (ix4 r 0 g n) = c (ix3 r g 0) * p (ix2 g n) + a (ix2 r g) * q (ix2 g n) := by
  unfold k0_pay1
  refine (unit_axis_entry _ r g n).trans ?_
  show broadcastTo S400x13x10 c broadcasts_S400x13x1_S400x13x10 (ix3 r g n)
        * broadcastTo S400x13x10 (shapeCast S1x13x10 p shapeCasts_S13x10_S1x13x10) broadcasts_S1x13x10_S400x13x10 (ix3 r g n)
      + broadcastTo S400x13x10 (shapeCast S400x13x1 a shapeCasts_S400x13_S400x13x1) broadcasts_S400x13x1_S400x13x10 (ix3 r g n)
        * broadcastTo S400x13x10 (shapeCast S1x13x10 q shapeCasts_S13x10_S1x13x10) broadcasts_S1x13x10_S400x13x10 (ix3 r g n) = _
  rw [spread_col_entry, spread_tab_entry, spread_col_entry, spread_tab_entry, col_entry]

/-- The second stored slab: `a[r,g]·p[g,n] + b[r,g]·q[g,n]`. -/
theorem slab1_entry (a b : FVec Ideal S400x13 .f32) (p q : FVec Ideal S13x10 .f32)
    (r : Fin 400) (g : Fin 13) (n : Fin 10) :
    k0_pay2 a b p q (ix4 r 0 g n) = a (ix2 r g) * p (ix2 g n) + b (ix2 r g) * q (ix2 g n) := by
  unfold k0_pay2
  refine (unit_axis_entry _ r g n).trans ?_
  show broadcastTo S400x13x10 (shapeCast S400x13x1 a shapeCasts_S400x13_S400x13x1) broadcasts_S400x13x1_S400x13x10 (ix3 r g n)
        * broadcastTo S400x13x10 (shapeCast S1x13x10 p shapeCasts_S13x10_S1x13x10) broadcasts_S1x13x10_S400x13x10 (ix3 r g n)
      + broadcastTo S400x13x10 (shapeCast S400x13x1 b shapeCasts_S400x13_S400x13x1) broadcasts_S400x13x1_S400x13x10 (ix3 r g n)
        * broadcastTo S400x13x10 (shapeCast S1x13x10 q shapeCasts_S13x10_S1x13x10) broadcasts_S1x13x10_S400x13x10 (ix3 r g n) = _
  rw [spread_col_entry, spread_tab_entry, spread_col_entry, spread_tab_entry, col_entry, col_entry]

/-! ## The rows of the inverse Jacobian at `(r, g)` -/

theorem invj11_entry (r : Fin 400) (g : Fin 13) :
    k0_pay17 (View.ld x0 r0_0) (View.ld x0 r0_1) w11 w12 w21 w22 (ix3 r g 0)
      = jac (rows x0) (tabT w11) 0 r g * invDet (rows x0) (tabT w11) (tabT w12) (tabT w21) (tabT w22) r g := by
  unfold k0_pay17
  refine (col_entry _ r g).trans ?_
  show k0_pay6 (View.ld x0 r0_0) w11 (ix2 r g)
      * k0_pay11 (View.ld x0 r0_0) (View.ld x0 r0_1) w11 w12 w21 w22 (ix2 r g) = _
  rw [j11_entry, inv_entry]

theorem invj12_entry (r : Fin 400) (g : Fin 13) :
    k0_pay12 (View.ld x0 r0_0) (View.ld x0 r0_1) w11 w12 w21 w22 (ix2 r g)
      = -(jac (rows x0) (tabT w21) 0 r g) * invDet (rows x0) (tabT w11) (tabT w12) (tabT w21) (tabT w22) r g := by
  unfold k0_pay12
  show (Ideal.ofBits .f32 0x00000000#32 - k0_pay8 (View.ld x0 r0_0) w21 (ix2 r g))
      * k0_pay11 (View.ld x0 r0_0) (View.ld x0 r0_1) w11 w12 w21 w22 (ix2 r g) = _
  rw [Ideal.ofBits_zero_f32, zero_sub, j21_entry, inv_entry]

theorem invj21_entry (r : Fin 400) (g : Fin 13) :
    k0_pay13 (View.ld x0 r0_0) (View.ld x0 r0_1) w11 w12 w21 w22 (ix2 r g)
      = -(jac (rows x0) (tabT w12) 1 r g) * invDet (rows x0) (tabT w11) (tabT w12) (tabT w21) (tabT w22) r g := by
  unfold k0_pay13
  show (Ideal.ofBits .f32 0x00000000#32 - k0_pay7 (View.ld x0 r0_1) w12 (ix2 r g))
      * k0_pay11 (View.ld x0 r0_0) (View.ld x0 r0_1) w11 w12 w21 w22 (ix2 r g) = _
  rw [Ideal.ofBits_zero_f32, zero_sub, j12_entry, inv_entry]

theorem invj22_entry (r : Fin 400) (g : Fin 13) :
    k0_pay14 (View.ld x0 r0_0) (View.ld x0 r0_1) w11 w12 w21 w22 (ix2 r g)
      = jac (rows x0) (tabT w22) 1 r g * invDet (rows x0) (tabT w11) (tabT w12) (tabT w21) (tabT w22) r g := by
  unfold k0_pay14
  show k0_pay9 (View.ld x0 r0_1) w22 (ix2 r g)
      * k0_pay11 (View.ld x0 r0_0) (View.ld x0 r0_1) w11 w12 w21 w22 (ix2 r g) = _
  rw [j22_entry, inv_entry]

/-! ## The two output blocks after the body -/

/-- Where the first store's rectangle puts its entry `(r, 0, g, n)`: row 0 of the block, -/
theorem emb_slab0 (r : Fin 400) (z : Fin 1) (g : Fin 13) (n : Fin 10) :
    r0_4.emb (ix4 r z g n : S400x1x13x10.Idx) = (ix4 r 0 g n : S400x2x13x10.Idx) := by
  funext d
  apply Fin.ext
  match d with
  | ⟨0, _⟩ => show 0 + 1 * r.val = r.val; omega
  | ⟨1, _⟩ => show 0 + 1 * z.val = 0; have := z.isLt; omega
  | ⟨2, _⟩ => show 0 + 1 * g.val = g.val; omega
  | ⟨3, _⟩ => show 0 + 1 * n.val = n.val; omega

/-- and the second's: row 1. -/
theorem emb_slab1 (r : Fin 400) (z : Fin 1) (g : Fin 13) (n : Fin 10) :
    r0_5.emb (ix4 r z g n : S400x1x13x10.Idx) = (ix4 r 1 g n : S400x2x13x10.Idx) := by
  funext d
  apply Fin.ext
  match d with
  | ⟨0, _⟩ => show 0 + 1 * r.val = r.val; omega
  | ⟨1, _⟩ => show 1 + 1 * z.val = 1; have := z.isLt; omega
  | ⟨2, _⟩ => show 0 + 1 * g.val = g.val; omega
  | ⟨3, _⟩ => show 0 + 1 * n.val = n.val; omega

/-- The derivatives block as one function of the loaded blocks. -/
def nxBlock (x0 : Vec Ideal S400x2x10 .f32) (x1 x2 : Vec Ideal S13x10 .f32) (x3 x4 x5 x6 : Vec Ideal S10x13 .f32) :
    S400x2x13x10.Idx → EReal := fun y =>
  nx (rows x0) (tab x1) (tab x2) (tabT x3) (tabT x4) (tabT x5) (tabT x6) (y 0) (y 1) (y 2) (y 3)

/-- The determinant block as one function of the loaded blocks. -/
def absDetBlock (x0 : Vec Ideal S400x2x10 .f32) (x3 x4 x5 x6 : Vec Ideal S10x13 .f32) : S400x13.Idx → EReal := fun y =>
  absDet (rows x0) (tabT x3) (tabT x4) (tabT x5) (tabT x6) (y 0) (y 1)

/-- The body's two stores into the derivatives block leave `nxBlock`: the first fills row 0, the second row 1. -/
theorem out7_eq (x0 : Vec Ideal S400x2x10 .f32) (x1 x2 : Vec Ideal S13x10 .f32) (x3 x4 x5 x6 : Vec Ideal S10x13 .f32) :
    out0_7 x0 x1 x2 x3 x4 x5 x6 = nxBlock x0 x1 x2 x3 x4 x5 x6 := by
  funext y
  unfold out0_7
  refine View.canon_apply_of_pieces (Val := Elt Ideal) (e := .f32) (nxBlock x0 x1 x2 x3 x4 x5 x6) _ (fun p hp x => ?_) y (cover0_7 _ _ y)
  simp only [List.mem_cons, List.not_mem_nil, or_false] at hp
  rcases hp with rfl | rfl
  · -- the store into row 1
    obtain ⟨r, z, g, n, rfl⟩ : ∃ (r : Fin 400) (z : Fin 1) (g : Fin 13) (n : Fin 10), x = (ix4 r z g n : S400x1x13x10.Idx) :=
      ⟨x 0, x 1, x 2, x 3, eq_ix4 x⟩
    obtain rfl : z = 0 := Subsingleton.elim _ _
    show k0_pay2 (F := Ideal) _ _ _ _ (ix4 r 0 g n) = nxBlock x0 x1 x2 x3 x4 x5 x6 (r0_5.emb (ix4 r 0 g n : S400x1x13x10.Idx))
    rw [emb_slab1]
    refine (slab1_entry _ _ _ _ r g n).trans ?_
    rw [invj21_entry, invj22_entry]
    unfold k0_pay15 k0_pay16
    rw [shapeCast_self, shapeCast_self, ld_tab, ld_tab, ld_tabT, ld_tabT, ld_tabT, ld_tabT]
    show _ = nx _ _ _ _ _ _ _ r 1 g n
    unfold nx
    rw [if_neg (by decide)]
  · -- the store into row 0
    obtain ⟨r, z, g, n, rfl⟩ : ∃ (r : Fin 400) (z : Fin 1) (g : Fin 13) (n : Fin 10), x = (ix4 r z g n : S400x1x13x10.Idx) :=
      ⟨x 0, x 1, x 2, x 3, eq_ix4 x⟩
    obtain rfl : z = 0 := Subsingleton.elim _ _
    show k0_pay1 (F := Ideal) _ _ _ _ (ix4 r 0 g n) = nxBlock x0 x1 x2 x3 x4 x5 x6 (r0_4.emb (ix4 r 0 g n : S400x1x13x10.Idx))
    rw [emb_slab0]
    refine (slab0_entry _ _ _ _ r g n).trans ?_
    rw [invj11_entry, invj12_entry]
    unfold k0_pay15 k0_pay16
    rw [shapeCast_self, shapeCast_self, ld_tab, ld_tab, ld_tabT, ld_tabT, ld_tabT, ld_tabT]
    show _ = nx _ _ _ _ _ _ _ r 0 g n
    unfold nx
    rw [if_pos (by decide)]

/-- The body's store into the determinant block leaves `absDetBlock`. -/
theorem out8_eq (x0 : Vec Ideal S400x2x10 .f32) (x1 x2 : Vec Ideal S13x10 .f32) (x3 x4 x5 x6 : Vec Ideal S10x13 .f32) :
    out0_8 x0 x1 x2 x3 x4 x5 x6 = absDetBlock x0 x3 x4 x5 x6 := by
  unfold out0_8
  rw [View.canon_unit_zero (funext fun d => by match d with | ⟨0, _⟩ => rfl | ⟨1, _⟩ => rfl)]
  funext y
  obtain ⟨r, g, rfl⟩ : ∃ (r : Fin 400) (g : Fin 13), y = ix2 r g := ⟨y 0, y 1, eq_ix2 y⟩
  unfold k0_pay3
  show FloatOps.absf (k0_pay10 (View.ld x0 r0_0) (View.ld x0 r0_1) (View.ld x3 r0_2) (View.ld x4 r0_2) (View.ld x5 r0_2) (View.ld x6 r0_2) (ix2 r g)) = _
  rw [det_entry, Ideal.absf_def, ld_tabT, ld_tabT, ld_tabT, ld_tabT]
  rfl

end Cert.KernelIdeal.Block

end
-- ==== Proof.KernelArray.lean ====
/-
  From blocks to arrays: what the kernel's two result arrays hold after all 2500 grid points, as functions of the
  six argument arrays.

  Grid point `t` works on elements `400·t … 400·t + 399`: it stages that slab of the coordinates, the whole of
  the six small tables (which the host prepared before the launch by slicing and transposing arguments), and
  writes back the matching slabs of the two results. Every entry of a result slab depends on the coordinates of
  its own element only, so the slab is the restriction of one whole-array function; the slabs cover the arrays.
-/
import proofs.«121779_j16793322127488_2_alg».proof.Proof.Gen.KernelIdeal.Value
import proofs.«121779_j16793322127488_2_alg».proof.Proof.KernelBlock
import Idealize.ShloMosaic.Lib.StableHlo.Run

set_option maxRecDepth 16384

noncomputable section

namespace Cert.KernelIdeal.Whole

open Cert.KernelIdeal Cert.KernelIdeal.Gen Cert.KernelIdeal.Block Cert.Jacobian
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## Which block each window holds at grid point `t` (decided over the 2500 points) -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 4) = t.val ∧ win0_7.index t (1 : Fin 4) = 0 ∧ win0_7.index t (2 : Fin 4) = 0 ∧ win0_7.index t (3 : Fin 4) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

/-! ## The small tables the windows stage, as entries of the arguments -/

/-- Table 0 of the reference derivatives, transposed by the host before the launch, is what window 1 stages. -/
theorem V_main_v2 (c : Dev nD) : (V m c main_v2 : S13x10.Idx → EReal) =
    transpose S13x10 [1, 0] (shapeCast S10x13 (extractStridedSlice S1x10x13 ![0, 0, 0] (m ((c : Thread nD τ).loc main_arg1)) slices_S2x10x13_S1x10x13_0_0_0) shapeCasts_S1x10x13_S10x13) transposes_S10x13_S13x10_1_0 := by
  dsimp only [Gen.V, Gen.hostOps0]; after_results <;> rfl

theorem V_main_v2_apply (c : Dev nD) (g : Fin 13) (n : Fin 10) :
    V m c main_v2 (ix2 g n) = (m ((c : Thread nD τ).loc main_arg1)) (ix3 0 n g) := by
  rw [V_main_v2]
  refine (transpose_apply [1, 0] _ transposes_S10x13_S13x10_1_0 (ix2 g n) (ix2 n g) (fun b => ?_)).trans ?_
  · match b with
    | ⟨0, _⟩ => rfl
    | ⟨1, _⟩ => rfl
  refine (shapeCast_apply _ shapeCasts_S1x10x13_S10x13 (ix2 n g) (ix3 0 n g) ?_).trans ?_
  · rw [Shape.rowMajor_val_three, Shape.rowMajor_val_two]
    show (0 * 10 + n.val) * 13 + g.val = n.val * 13 + g.val
    omega
  refine extractStridedSlice_apply ![0, 0, 0] _ slices_S2x10x13_S1x10x13_0_0_0 (ix3 0 n g) (ix3 0 n g) (fun a => ?_)
  match a with
  | ⟨0, _⟩ => rfl
  | ⟨1, _⟩ => show n.val = 0 + n.val; omega
  | ⟨2, _⟩ => show g.val = 0 + g.val; omega

theorem tab1 (c : Dev nD) (t : Fin cfg0.N) : tab (iblk m c 1 t) = fun g n => (m ((c : Thread nD τ).loc main_arg1)) (ix3 0 n g) := by
  funext g n
  show V m c main_v2 (((cfg0.win 1).blk t).view.emb (ix2 g n)) = _
  obtain ⟨e0, e1⟩ := idx1 t
  have he : ((cfg0.win 1).blk t).view.emb (ix2 g n) = (ix2 g n : S13x10.Idx) := by
    funext a; apply Fin.ext
    match a with
    | ⟨0, _⟩ => show win0_1.index t (0 : Fin 2) * 13 + 1 * g.val = g.val; rw [e0]; omega
    | ⟨1, _⟩ => show win0_1.index t (1 : Fin 2) * 10 + 1 * n.val = n.val; rw [e1]; omega
  rw [he]
  exact V_main_v2_apply m c g n

/-- Table 1 of the reference derivatives, transposed by the host before the launch, is what window 2 stages. -/
theorem V_main_v5 (c : Dev nD) : (V m c main_v5 : S13x10.Idx → EReal) =
    transpose S13x10 [1, 0] (shapeCast S10x13 (extractStridedSlice S1x10x13 ![1, 0, 0] (m ((c : Thread nD τ).loc main_arg1)) slices_S2x10x13_S1x10x13_1_0_0) shapeCasts_S1x10x13_S10x13) transposes_S10x13_S13x10_1_0 := by
  dsimp only [Gen.V, Gen.hostOps0]; after_results <;> rfl

theorem V_main_v5_apply (c : Dev nD) (g : Fin 13) (n : Fin 10) :
    V m c main_v5 (ix2 g n) = (m ((c : Thread nD τ).loc main_arg1)) (ix3 1 n g) := by
  rw [V_main_v5]
  refine (transpose_apply [1, 0] _ transposes_S10x13_S13x10_1_0 (ix2 g n) (ix2 n g) (fun b => ?_)).trans ?_
  · match b with
    | ⟨0, _⟩ => rfl
    | ⟨1, _⟩ => rfl
  refine (shapeCast_apply _ shapeCasts_S1x10x13_S10x13 (ix2 n g) (ix3 0 n g) ?_).trans ?_
  · rw [Shape.rowMajor_val_three, Shape.rowMajor_val_two]
    show (0 * 10 + n.val) * 13 + g.val = n.val * 13 + g.val
    omega
  refine extractStridedSlice_apply ![1, 0, 0] _ slices_S2x10x13_S1x10x13_1_0_0 (ix3 0 n g) (ix3 1 n g) (fun a => ?_)
  match a with
  | ⟨0, _⟩ => rfl
  | ⟨1, _⟩ => show n.val = 0 + n.val; omega
  | ⟨2, _⟩ => show g.val = 0 + g.val; omega

theorem tab2 (c : Dev nD) (t : Fin cfg0.N) : tab (iblk m c 2 t) = fun g n => (m ((c : Thread nD τ).loc main_arg1)) (ix3 1 n g) := by
  funext g n
  show V m c main_v5 (((cfg0.win 2).blk t).view.emb (ix2 g n)) = _
  obtain ⟨e0, e1⟩ := idx2 t
  have he : ((cfg0.win 2).blk t).view.emb (ix2 g n) = (ix2 g n : S13x10.Idx) := by
    funext a; apply Fin.ext
    match a with
    | ⟨0, _⟩ => show win0_2.index t (0 : Fin 2) * 13 + 1 * g.val = g.val; rw [e0]; omega
    | ⟨1, _⟩ => show win0_2.index t (1 : Fin 2) * 10 + 1 * n.val = n.val; rw [e1]; omega
  rw [he]
  exact V_main_v5_apply m c g n

/-- Weight table `main_arg2`, transposed by the host before the launch, is what window 3 stages. -/
theorem V_main_v6 (c : Dev nD) : (V m c main_v6 : S10x13.Idx → EReal) =
    transpose S10x13 [1, 0] (m ((c : Thread nD τ).loc main_arg2)) transposes_S13x10_S10x13_1_0 := by
  dsimp only [Gen.V, Gen.hostOps0]; after_results <;> rfl

theorem V_main_v6_apply (c : Dev nD) (k : Fin 10) (g : Fin 13) :
    V m c main_v6 (ix2 k g) = (m ((c : Thread nD τ).loc main_arg2)) (ix2 g k) := by
  rw [V_main_v6]
  refine transpose_apply [1, 0] _ transposes_S13x10_S10x13_1_0 (ix2 k g) (ix2 g k) (fun b => ?_)
  match b with
  | ⟨0, _⟩ => rfl
  | ⟨1, _⟩ => rfl

theorem tabT3 (c : Dev nD) (t : Fin cfg0.N) : tabT (iblk m c 3 t) = fun g k => (m ((c : Thread nD τ).loc main_arg2)) (ix2 g k) := by
  funext g k
  show V m c main_v6 (((cfg0.win 3).blk t).view.emb (ix2 k g)) = _
  obtain ⟨e0, e1⟩ := idx3 t
  have he : ((cfg0.win 3).blk t).view.emb (ix2 k g) = (ix2 k g : S10x13.Idx) := by
    funext a; apply Fin.ext
    match a with
    | ⟨0, _⟩ => show win0_3.index t (0 : Fin 2) * 10 + 1 * k.val = k.val; rw [e0]; omega
    | ⟨1, _⟩ => show win0_3.index t (1 : Fin 2) * 13 + 1 * g.val = g.val; rw [e1]; omega
  rw [he]
  exact V_main_v6_apply m c k g

/-- Weight table `main_arg3`, transposed by the host before the launch, is what window 4 stages. -/
theorem V_main_v7 (c : Dev nD) : (V m c main_v7 : S10x13.Idx → EReal) =
    transpose S10x13 [1, 0] (m ((c : Thread nD τ).loc main_arg3)) transposes_S13x10_S10x13_1_0 := by
  dsimp only [Gen.V, Gen.hostOps0]; after_results <;> rfl

theorem V_main_v7_apply (c : Dev nD) (k : Fin 10) (g : Fin 13) :
    V m c main_v7 (ix2 k g) = (m ((c : Thread nD τ).loc main_arg3)) (ix2 g k) := by
  rw [V_main_v7]
  refine transpose_apply [1, 0] _ transposes_S13x10_S10x13_1_0 (ix2 k g) (ix2 g k) (fun b => ?_)
  match b with
  | ⟨0, _⟩ => rfl
  | ⟨1, _⟩ => rfl

theorem tabT4 (c : Dev nD) (t : Fin cfg0.N) : tabT (iblk m c 4 t) = fun g k => (m ((c : Thread nD τ).loc main_arg3)) (ix2 g k) := by
  funext g k
  show V m c main_v7 (((cfg0.win 4).blk t).view.emb (ix2 k g)) = _
  obtain ⟨e0, e1⟩ := idx4 t
  have he : ((cfg0.win 4).blk t).view.emb (ix2 k g) = (ix2 k g : S10x13.Idx) := by
    funext a; apply Fin.ext
    match a with
    | ⟨0, _⟩ => show win0_4.index t (0 : Fin 2) * 10 + 1 * k.val = k.val; rw [e0]; omega
    | ⟨1, _⟩ => show win0_4.index t (1 : Fin 2) * 13 + 1 * g.val = g.val; rw [e1]; omega
  rw [he]
  exact V_main_v7_apply m c k g

/-- Weight table `main_arg4`, transposed by the host before the launch, is what window 5 stages. -/
theorem V_main_v8 (c : Dev nD) : (V m c main_v8 : S10x13.Idx → EReal) =
    transpose S10x13 [1, 0] (m ((c : Thread nD τ).loc main_arg4)) transposes_S13x10_S10x13_1_0 := by
  dsimp only [Gen.V, Gen.hostOps0]; after_results <;> rfl

theorem V_main_v8_apply (c : Dev nD) (k : Fin 10) (g : Fin 13) :
    V m c main_v8 (ix2 k g) = (m ((c : Thread nD τ).loc main_arg4)) (ix2 g k) := by
  rw [V_main_v8]
  refine transpose_apply [1, 0] _ transposes_S13x10_S10x13_1_0 (ix2 k g) (ix2 g k) (fun b => ?_)
  match b with
  | ⟨0, _⟩ => rfl
  | ⟨1, _⟩ => rfl

theorem tabT5 (c : Dev nD) (t : Fin cfg0.N) : tabT (iblk m c 5 t) = fun g k => (m ((c : Thread nD τ).loc main_arg4)) (ix2 g k) := by
  funext g k
  show V m c main_v8 (((cfg0.win 5).blk t).view.emb (ix2 k g)) = _
  obtain ⟨e0, e1⟩ := idx5 t
  have he : ((cfg0.win 5).blk t).view.emb (ix2 k g) = (ix2 k g : S10x13.Idx) := by
    funext a; apply Fin.ext
    match a with
    | ⟨0, _⟩ => show win0_5.index t (0 : Fin 2) * 10 + 1 * k.val = k.val; rw [e0]; omega
    | ⟨1, _⟩ => show win0_5.index t (1 : Fin 2) * 13 + 1 * g.val = g.val; rw [e1]; omega
  rw [he]
  exact V_main_v8_apply m c k g

/-- Weight table `main_arg5`, transposed by the host before the launch, is what window 6 stages. -/
theorem V_main_v9 (c : Dev nD) : (V m c main_v9 : S10x13.Idx → EReal) =
    transpose S10x13 [1, 0] (m ((c : Thread nD τ).loc main_arg5)) transposes_S13x10_S10x13_1_0 := by
  dsimp only [Gen.V, Gen.hostOps0]; after_results <;> rfl

theorem V_main_v9_apply (c : Dev nD) (k : Fin 10) (g : Fin 13) :
    V m c main_v9 (ix2 k g) = (m ((c : Thread nD τ).loc main_arg5)) (ix2 g k) := by
  rw [V_main_v9]
  refine transpose_apply [1, 0] _ transposes_S13x10_S10x13_1_0 (ix2 k g) (ix2 g k) (fun b => ?_)
  match b with
  | ⟨0, _⟩ => rfl
  | ⟨1, _⟩ => rfl

theorem tabT6 (c : Dev nD) (t : Fin cfg0.N) : tabT (iblk m c 6 t) = fun g k => (m ((c : Thread nD τ).loc main_arg5)) (ix2 g k) := by
  funext g k
  show V m c main_v9 (((cfg0.win 6).blk t).view.emb (ix2 k g)) = _
  obtain ⟨e0, e1⟩ := idx6 t
  have he : ((cfg0.win 6).blk t).view.emb (ix2 k g) = (ix2 k g : S10x13.Idx) := by
    funext a; apply Fin.ext
    match a with
    | ⟨0, _⟩ => show win0_6.index t (0 : Fin 2) * 10 + 1 * k.val = k.val; rw [e0]; omega
    | ⟨1, _⟩ => show win0_6.index t (1 : Fin 2) * 13 + 1 * g.val = g.val; rw [e1]; omega
  rw [he]
  exact V_main_v9_apply m c k g

/-! ## The coordinate slab -/

/-- Entry `(r, s, k)` of the slab at point `t` is the coordinates' entry at element `400·t + r`. -/
theorem blk0_apply (c : Dev nD) (t : Fin cfg0.N) (r : Fin 400) (s : Fin 2) (k : Fin 10) (b : Fin 1000000)
    (hb : b.val = t.val * 400 + r.val) :
    iblk m c 0 t (ix3 r s k) = (m ((c : Thread nD τ).loc main_arg0)) (ix3 b s k) := by
  rw [← V_main_arg0 m c]
  show V m c main_arg0 (((cfg0.win 0).blk t).view.emb (ix3 r s k)) = _
  refine congrArg (V m c main_arg0) (funext fun a => Fin.ext ?_)
  obtain ⟨e0, e1, e2⟩ := idx0 t
  match a with
  | ⟨0, _⟩ => show win0_0.index t (0 : Fin 3) * 400 + 1 * r.val = b.val; rw [e0, hb]; omega
  | ⟨1, _⟩ => show win0_0.index t (1 : Fin 3) * 2 + 1 * s.val = s.val; rw [e1]; omega
  | ⟨2, _⟩ => show win0_0.index t (2 : Fin 3) * 10 + 1 * k.val = k.val; rw [e2]; omega

/-! ## A result slab is the restriction of the whole-array function -/

theorem nxBlock_eq_arr (c : Dev nD) (t : Fin cfg0.N) (y : S400x2x13x10.Idx) (i : S1000000x2x13x10.Idx)
    (h0 : (i 0).val = t.val * 400 + (y 0).val) (h1 : (i 1).val = (y 1).val) (h2 : (i 2).val = (y 2).val)
    (h3 : (i 3).val = (y 3).val) :
    nxBlock (iblk m c 0 t) (iblk m c 1 t) (iblk m c 2 t) (iblk m c 3 t) (iblk m c 4 t) (iblk m c 5 t) (iblk m c 6 t) y = nxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  obtain ⟨r, s, g, n, rfl⟩ : ∃ (r : Fin 400) (s : Fin 2) (g : Fin 13) (n : Fin 10), y = ix4 r s g n := ⟨y 0, y 1, y 2, y 3, eq_ix4 y⟩
  obtain ⟨b, s', g', n', rfl⟩ : ∃ (b : Fin 1000000) (s' : Fin 2) (g' : Fin 13) (n' : Fin 10), i = ix4 b s' g' n' := ⟨i 0, i 1, i 2, i 3, eq_ix4 i⟩
  obtain rfl : s' = s := Fin.ext h1
  obtain rfl : g' = g := Fin.ext h2
  obtain rfl : n' = n := Fin.ext h3
  show nx (rows (iblk m c 0 t)) (tab (iblk m c 1 t)) (tab (iblk m c 2 t)) (tabT (iblk m c 3 t)) (tabT (iblk m c 4 t))
      (tabT (iblk m c 5 t)) (tabT (iblk m c 6 t)) r s' g' n'
    = nx (fun b s k => (m ((c : Thread nD τ).loc main_arg0)) (ix3 b s k)) (fun g n => (m ((c : Thread nD τ).loc main_arg1)) (ix3 0 n g)) (fun g n => (m ((c : Thread nD τ).loc main_arg1)) (ix3 1 n g))
      (fun g k => (m ((c : Thread nD τ).loc main_arg2)) (ix2 g k)) (fun g k => (m ((c : Thread nD τ).loc main_arg3)) (ix2 g k)) (fun g k => (m ((c : Thread nD τ).loc main_arg4)) (ix2 g k)) (fun g k => (m ((c : Thread nD τ).loc main_arg5)) (ix2 g k))
      b s' g' n'
  rw [tab1 m c t, tab2 m c t, tabT3 m c t, tabT4 m c t, tabT5 m c t, tabT6 m c t]
  exact nx_congr (fun s k => blk0_apply m c t r s k b h0) _ _ _ _ _ _ s' g' n'

theorem absDetBlock_eq_arr (c : Dev nD) (t : Fin cfg0.N) (y : S400x13.Idx) (i : S1000000x13.Idx)
    (h0 : (i 0).val = t.val * 400 + (y 0).val) (h1 : (i 1).val = (y 1).val) :
    absDetBlock (iblk m c 0 t) (iblk m c 3 t) (iblk m c 4 t) (iblk m c 5 t) (iblk m c 6 t) y
      = absDetArr (m ((c : Thread nD τ).loc main_arg0)) (m ((c : Thread nD τ).loc main_arg2)) (m ((c : Thread nD τ).loc main_arg3)) (m ((c : Thread nD τ).loc main_arg4)) (m ((c : Thread nD τ).loc main_arg5)) i := by
  obtain ⟨r, g, rfl⟩ : ∃ (r : Fin 400) (g : Fin 13), y = ix2 r g := ⟨y 0, y 1, eq_ix2 y⟩
  obtain ⟨b, g', rfl⟩ : ∃ (b : Fin 1000000) (g' : Fin 13), i = ix2 b g' := ⟨i 0, i 1, eq_ix2 i⟩
  obtain rfl : g' = g := Fin.ext h1
  show absDet (rows (iblk m c 0 t)) (tabT (iblk m c 3 t)) (tabT (iblk m c 4 t)) (tabT (iblk m c 5 t)) (tabT (iblk m c 6 t)) r g'
    = absDet (fun b s k => (m ((c : Thread nD τ).loc main_arg0)) (ix3 b s k))
      (fun g k => (m ((c : Thread nD τ).loc main_arg2)) (ix2 g k)) (fun g k => (m ((c : Thread nD τ).loc main_arg3)) (ix2 g k)) (fun g k => (m ((c : Thread nD τ).loc main_arg4)) (ix2 g k)) (fun g k => (m ((c : Thread nD τ).loc main_arg5)) (ix2 g k)) b g'
  rw [tabT3 m c t, tabT4 m c t, tabT5 m c t, tabT6 m c t]
  exact absDet_congr (fun s k => blk0_apply m c t r s k b h0) _ _ _ _ g'

/-! ## What each point writes back -/

theorem flushed7_eq (c : Dev nD) (t : Fin cfg0.N) :
    (dats m 0 c).flushed 7 t
      = ((cfg0.win 7).blk t).view.read (Elt Ideal) (nxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed7, out7_eq (iblk m c 0 t) (iblk m c 1 t) (iblk m c 2 t) (iblk m c 3 t) (iblk m c 4 t) (iblk m c 5 t) (iblk m c 6 t)]
  funext y
  obtain ⟨e0, e1, e2, e3⟩ := idx7 t
  refine nxBlock_eq_arr m c t y (((cfg0.win 7).blk t).view.emb y) ?_ ?_ ?_ ?_
  · show win0_7.index t (0 : Fin 4) * 400 + 1 * (y 0).val = t.val * 400 + (y 0).val; rw [e0]; omega
  · show win0_7.index t (1 : Fin 4) * 2 + 1 * (y 1).val = (y 1).val; rw [e1]; omega
  · show win0_7.index t (2 : Fin 4) * 13 + 1 * (y 2).val = (y 2).val; rw [e2]; omega
  · show win0_7.index t (3 : Fin 4) * 10 + 1 * (y 3).val = (y 3).val; rw [e3]; omega

theorem flushed8_eq (c : Dev nD) (t : Fin cfg0.N) :
    (dats m 0 c).flushed 8 t
      = ((cfg0.win 8).blk t).view.read (Elt Ideal) (absDetArr (m ((c : Thread nD τ).loc main_arg0)) (m ((c : Thread nD τ).loc main_arg2)) (m ((c : Thread nD τ).loc main_arg3)) (m ((c : Thread nD τ).loc main_arg4)) (m ((c : Thread nD τ).loc main_arg5))) := by
  rw [Value.flushed8, out8_eq (iblk m c 0 t) (iblk m c 1 t) (iblk m c 2 t) (iblk m c 3 t) (iblk m c 4 t) (iblk m c 5 t) (iblk m c 6 t)]
  funext y
  obtain ⟨e0, e1⟩ := idx8 t
  refine absDetBlock_eq_arr m c t y (((cfg0.win 8).blk t).view.emb y) ?_ ?_
  · show win0_8.index t (0 : Fin 2) * 400 + 1 * (y 0).val = t.val * 400 + (y 0).val; rw [e0]; omega
  · show win0_8.index t (1 : Fin 2) * 13 + 1 * (y 1).val = (y 1).val; rw [e1]; omega

/-! ## The slabs cover the arrays -/

theorem mem_blk7 (t : Fin cfg0.N) (i : S1000000x2x13x10.Idx) :
    i ∈ ((cfg0.win 7).blk t).view.set ↔ ∀ a : Fin 4, win0_7.index t a * S400x2x13x10.size a ≤ (i a).val ∧ (i a).val < win0_7.index t a * S400x2x13x10.size a + S400x2x13x10.size a := by
  show i ∈ ((View.whole main_v10_0).slice (win0_7.rect t)).set ↔ _
  rw [View.set_slice_whole, Rect.mem_set_unit]
  exact Iff.rfl

theorem mem_blk8 (t : Fin cfg0.N) (i : S1000000x13.Idx) :
    i ∈ ((cfg0.win 8).blk t).view.set ↔ ∀ a : Fin 2, win0_8.index t a * S400x13.size a ≤ (i a).val ∧ (i a).val < win0_8.index t a * S400x13.size a + S400x13.size a := by
  show i ∈ ((View.whole main_v10_1).slice (win0_8.rect t)).set ↔ _
  rw [View.set_slice_whole, Rect.mem_set_unit]
  exact Iff.rfl

/-- Element `b` lies in the slab of point `b / 400`. -/
theorem cover7 (i : S1000000x2x13x10.Idx) :
    ∃ t : Fin cfg0.N, (cfg0.win 7).flush t = true ∧ i ∈ ((cfg0.win 7).blk t).view.set := by
  have hi0 : (i 0).val < 1000000 := (i 0).isLt
  have hi1 : (i 1).val < 2 := (i 1).isLt
  have hi2 : (i 2).val < 13 := (i 2).isLt
  have hi3 : (i 3).val < 10 := (i 3).isLt
  have hN : cfg0.N = 2500 := N_0
  let t : Fin cfg0.N := ⟨(i 0).val / 400, by omega⟩
  obtain ⟨e0, e1, e2, e3⟩ := idx7 t
  have e0' : win0_7.index t (0 : Fin 4) = (i 0).val / 400 := e0
  refine ⟨t, flush0_7 t, ?_⟩
  rw [mem_blk7]
  intro a
  match a with
  | ⟨0, _⟩ => show win0_7.index t (0 : Fin 4) * 400 ≤ (i 0).val ∧ (i 0).val < win0_7.index t (0 : Fin 4) * 400 + 400; rw [e0']; omega
  | ⟨1, _⟩ => show win0_7.index t (1 : Fin 4) * 2 ≤ (i 1).val ∧ (i 1).val < win0_7.index t (1 : Fin 4) * 2 + 2; rw [e1]; omega
  | ⟨2, _⟩ => show win0_7.index t (2 : Fin 4) * 13 ≤ (i 2).val ∧ (i 2).val < win0_7.index t (2 : Fin 4) * 13 + 13; rw [e2]; omega
  | ⟨3, _⟩ => show win0_7.index t (3 : Fin 4) * 10 ≤ (i 3).val ∧ (i 3).val < win0_7.index t (3 : Fin 4) * 10 + 10; rw [e3]; omega

theorem cover8 (i : S1000000x13.Idx) :
    ∃ t : Fin cfg0.N, (cfg0.win 8).flush t = true ∧ i ∈ ((cfg0.win 8).blk t).view.set := by
  have hi0 : (i 0).val < 1000000 := (i 0).isLt
  have hi1 : (i 1).val < 13 := (i 1).isLt
  have hN : cfg0.N = 2500 := N_0
  let t : Fin cfg0.N := ⟨(i 0).val / 400, by omega⟩
  obtain ⟨e0, e1⟩ := idx8 t
  have e0' : win0_8.index t (0 : Fin 2) = (i 0).val / 400 := e0
  refine ⟨t, flush0_8 t, ?_⟩
  rw [mem_blk8]
  intro a
  match a with
  | ⟨0, _⟩ => show win0_8.index t (0 : Fin 2) * 400 ≤ (i 0).val ∧ (i 0).val < win0_8.index t (0 : Fin 2) * 400 + 400; rw [e0']; omega
  | ⟨1, _⟩ => show win0_8.index t (1 : Fin 2) * 13 ≤ (i 1).val ∧ (i 1).val < win0_8.index t (1 : Fin 2) * 13 + 13; rw [e1]; omega

/-! ## The arrays after the run, and the run -/

theorem final7 (c : Dev nD) :
    (dats m 0 c).arrAt 7 cfg0.N = nxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 7 _ (fun t _ => flushed7_eq m c t) cover7

theorem final8 (c : Dev nD) :
    (dats m 0 c).arrAt 8 cfg0.N = absDetArr (m ((c : Thread nD τ).loc main_arg0)) (m ((c : Thread nD τ).loc main_arg2)) (m ((c : Thread nD τ).loc main_arg3)) (m ((c : Thread nD τ).loc main_arg4)) (m ((c : Thread nD τ).loc main_arg5)) :=
  (dats m 0 c).arrAt_eq_of_cover 8 _ (fun t _ => flushed8_eq m c t) cover8

/-- Every weakly fair execution of the kernel's program ends with the derivatives array at `nxArr` and the
    determinant array at `absDetArr` of the argument arrays, which are unchanged. -/
theorem run : θ_run defs (onTc (τ := τ) (main (F := Ideal))) ⟨m, fun _ => 0, ρ⟩ fun r => ∀ c : Dev nD,
      r.2.mem ((c : Thread nD τ).loc main_v10_0) = nxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v10_1) = absDetArr (m ((c : Thread nD τ).loc main_arg0)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final7 m c), (h c).2.1.trans (final8 m c), (h c).2.2⟩)
    (Value.run_blocks m ρ)

end Cert.KernelIdeal.Whole

end
-- ==== Proof.Reference.lean ====
/-
  The reference program's two results, entry by entry, as the same functions of the argument arrays.

  The reference slices the two coordinate rows, forms the four Jacobian entries by contractions over the ten
  nodes, the determinant and its reciprocal, negates two entries, multiplies the four by the reciprocal, spreads
  them along the node axis against the two transposed reference tables, adds, and stacks the two derivative
  slabs along a new axis 1.
-/
import proofs.«121779_j16793322127488_2_alg».proof.Proof.Gen.ReferenceIdeal.Read
import proofs.«121779_j16793322127488_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Cert.Jacobian
open Idealize.ShloMosaic Idealize.ShloMosaic.ValueIdx

variable (x0 : S1000000x2x10.Idx → EReal) (x1 : S2x10x13.Idx → EReal) (x2 x3 x4 x5 : S13x10.Idx → EReal)

/-- The coordinates, element by row by node. -/
abbrev X (x0 : S1000000x2x10.Idx → EReal) : Fin 1000000 → Fin 2 → Fin 10 → EReal := fun b s k => x0 (ix3 b s k)

/-- A weight table, quadrature point by node. -/
abbrev Wt (w : S13x10.Idx → EReal) : Fin 13 → Fin 10 → EReal := fun g k => w (ix2 g k)

/-! ## The two coordinate rows -/

theorem row0 (b : Fin 1000000) (k : Fin 10) :
    val_main_v1 (F := Ideal) x0 (ix2 b k) = x0 (ix3 b 0 k) := by
  rw [val_main_v1_apply, val_main_v0_apply]
  refine congrArg x0 (funext fun a => Fin.ext ?_)
  have hb : b.val < 1000000 := b.isLt
  have hk : k.val < 10 := k.isLt
  match a with
  | ⟨0, _⟩ => show (b.val * 10 + k.val) / 10 = b.val; omega
  | ⟨1, _⟩ => rfl
  | ⟨2, _⟩ => show (b.val * 10 + k.val) % 10 = k.val; omega

theorem row1 (b : Fin 1000000) (k : Fin 10) :
    val_main_v3 (F := Ideal) x0 (ix2 b k) = x0 (ix3 b 1 k) := by
  rw [val_main_v3_apply, val_main_v2_apply]
  refine congrArg x0 (funext fun a => Fin.ext ?_)
  have hb : b.val < 1000000 := b.isLt
  have hk : k.val < 10 := k.isLt
  match a with
  | ⟨0, _⟩ => show (b.val * 10 + k.val) / 10 = b.val; omega
  | ⟨1, _⟩ => rfl
  | ⟨2, _⟩ => show (b.val * 10 + k.val) % 10 = k.val; omega

/-! ## The Jacobian entries, the determinant, its reciprocal -/

theorem j11 (b : Fin 1000000) (g : Fin 13) :
    val_main_v4 (F := Ideal) x0 x2 (ix2 b g) = jac (X x0) (Wt x2) 0 b g := by
  rw [val_main_v4_apply]
  unfold jac
  refine Finset.sum_congr rfl fun k _ => ?_
  have el : lidx_main_v4 (ix2 b g) k = (ix2 b k : S1000000x10.Idx) :=
    funext fun a => by match a with | ⟨0, _⟩ => rfl | ⟨1, _⟩ => rfl
  have er : ridx_main_v4 (ix2 b g) k = (ix2 g k : S13x10.Idx) :=
    funext fun a => by match a with | ⟨0, _⟩ => rfl | ⟨1, _⟩ => rfl
  rw [el, er, row0]

theorem j12 (b : Fin 1000000) (g : Fin 13) :
    val_main_v5 (F := Ideal) x0 x3 (ix2 b g) = jac (X x0) (Wt x3) 1 b g := by
  rw [val_main_v5_apply]
  unfold jac
  refine Finset.sum_congr rfl fun k _ => ?_
  have el : lidx_main_v5 (ix2 b g) k = (ix2 b k : S1000000x10.Idx) :=
    funext fun a => by match a with | ⟨0, _⟩ => rfl | ⟨1, _⟩ => rfl
  have er : ridx_main_v5 (ix2 b g) k = (ix2 g k : S13x10.Idx) :=
    funext fun a => by match a with | ⟨0, _⟩ => rfl | ⟨1, _⟩ => rfl
  rw [el, er, row1]

theorem j21 (b : Fin 1000000) (g : Fin 13) :
    val_main_v6 (F := Ideal) x0 x4 (ix2 b g) = jac (X x0) (Wt x4) 0 b g := by
  rw [val_main_v6_apply]
  unfold jac
  refine Finset.sum_congr rfl fun k _ => ?_
  have el : lidx_main_v6 (ix2 b g) k = (ix2 b k : S1000000x10.Idx) :=
    funext fun a => by match a with | ⟨0, _⟩ => rfl | ⟨1, _⟩ => rfl
  have er : ridx_main_v6 (ix2 b g) k = (ix2 g k : S13x10.Idx) :=
    funext fun a => by match a with | ⟨0, _⟩ => rfl | ⟨1, _⟩ => rfl
  rw [el, er, row0]

theorem j22 (b : Fin 1000000) (g : Fin 13) :
    val_main_v7 (F := Ideal) x0 x5 (ix2 b g) = jac (X x0) (Wt x5) 1 b g := by
  rw [val_main_v7_apply]
  unfold jac
  refine Finset.sum_congr rfl fun k _ => ?_
  have el : lidx_main_v7 (ix2 b g) k = (ix2 b k : S1000000x10.Idx) :=
    funext fun a => by match a with | ⟨0, _⟩ => rfl | ⟨1, _⟩ => rfl
  have er : ridx_main_v7 (ix2 b g) k = (ix2 g k : S13x10.Idx) :=
    funext fun a => by match a with | ⟨0, _⟩ => rfl | ⟨1, _⟩ => rfl
  rw [el, er, row1]

theorem det_entry (b : Fin 1000000) (g : Fin 13) :
    val_main_v10 (F := Ideal) x0 x2 x3 x4 x5 (ix2 b g) = det (X x0) (Wt x2) (Wt x3) (Wt x4) (Wt x5) b g := by
  rw [val_main_v10_apply, val_main_v8_apply, val_main_v9_apply, j11, j22, j21, j12]
  rfl

theorem inv_entry (b : Fin 1000000) (g : Fin 13) :
    val_main_v12 (F := Ideal) x0 x2 x3 x4 x5 (ix2 b g) = invDet (X x0) (Wt x2) (Wt x3) (Wt x4) (Wt x5) b g := by
  rw [val_main_v12_apply, val_main_v11_apply, val_main_cst_apply, det_entry]
  rfl

/-! ## The two reference tables, transposed -/

theorem tbl0 (g : Fin 13) (n : Fin 10) :
    val_main_v15 (F := Ideal) x1 (ix2 g n) = x1 (ix3 0 n g) := by
  rw [val_main_v15_apply, val_main_v14_apply, val_main_v13_apply]
  refine congrArg x1 (funext fun a => Fin.ext ?_)
  have hn : n.val < 10 := n.isLt
  have hg : g.val < 13 := g.isLt
  match a with
  | ⟨0, _⟩ => rfl
  | ⟨1, _⟩ => show (n.val * 13 + g.val) / 13 % 10 = n.val; omega
  | ⟨2, _⟩ => show (n.val * 13 + g.val) % 13 = g.val; omega

theorem tbl1 (g : Fin 13) (n : Fin 10) :
    val_main_v18 (F := Ideal) x1 (ix2 g n) = x1 (ix3 1 n g) := by
  rw [val_main_v18_apply, val_main_v17_apply, val_main_v16_apply]
  refine congrArg x1 (funext fun a => Fin.ext ?_)
  have hn : n.val < 10 := n.isLt
  have hg : g.val < 13 := g.isLt
  match a with
  | ⟨0, _⟩ => rfl
  | ⟨1, _⟩ => show (n.val * 13 + g.val) / 13 % 10 = n.val; omega
  | ⟨2, _⟩ => show (n.val * 13 + g.val) % 13 = g.val; omega

/-! ## Spreading along the node axis and along the element axis -/

/-- The first row's first coefficient, spread along the nodes. -/
theorem spread_a (b : Fin 1000000) (g : Fin 13) (n : Fin 10) :
    val_main_v30 (F := Ideal) x0 x2 x3 x4 x5 (ix3 b g n) = val_main_v19 (F := Ideal) x0 x2 x3 x4 x5 (ix2 b g) := by
  rw [val_main_v30_apply, val_main_v20_apply]
  exact congrArg _ (funext fun a => by match a with | ⟨0, _⟩ => rfl | ⟨1, _⟩ => rfl)

/-- The first row's second coefficient, spread along the nodes. -/
theorem spread_b (b : Fin 1000000) (g : Fin 13) (n : Fin 10) :
    val_main_v34 (F := Ideal) x0 x2 x3 x4 x5 (ix3 b g n) = val_main_v22 (F := Ideal) x0 x2 x3 x4 x5 (ix2 b g) := by
  rw [val_main_v34_apply, val_main_v23_apply]
  exact congrArg _ (funext fun a => by match a with | ⟨0, _⟩ => rfl | ⟨1, _⟩ => rfl)

/-- The second row's first coefficient, spread along the nodes. -/
theorem spread_c (b : Fin 1000000) (g : Fin 13) (n : Fin 10) :
    val_main_v39 (F := Ideal) x0 x2 x3 x4 x5 (ix3 b g n) = val_main_v25 (F := Ideal) x0 x2 x3 x4 x5 (ix2 b g) := by
  rw [val_main_v39_apply, val_main_v26_apply]
  exact congrArg _ (funext fun a => by match a with | ⟨0, _⟩ => rfl | ⟨1, _⟩ => rfl)

/-- The second row's second coefficient, spread along the nodes. -/
theorem spread_d (b : Fin 1000000) (g : Fin 13) (n : Fin 10) :
    val_main_v43 (F := Ideal) x0 x2 x3 x4 x5 (ix3 b g n) = val_main_v27 (F := Ideal) x0 x2 x3 x4 x5 (ix2 b g) := by
  rw [val_main_v43_apply, val_main_v28_apply]
  exact congrArg _ (funext fun a => by match a with | ⟨0, _⟩ => rfl | ⟨1, _⟩ => rfl)

/-- Table 0 spread along the elements (its first use). -/
theorem spread_t0a (b : Fin 1000000) (g : Fin 13) (n : Fin 10) :
    val_main_v31 (F := Ideal) x1 (ix3 b g n) = val_main_v15 (F := Ideal) x1 (ix2 g n) := by
  rw [val_main_v31_apply, val_main_v29_apply]
  exact congrArg _ (funext fun a => by match a with | ⟨0, _⟩ => rfl | ⟨1, _⟩ => rfl)

/-- Table 1 spread along the elements (its first use). -/
theorem spread_t1a (b : Fin 1000000) (g : Fin 13) (n : Fin 10) :
    val_main_v35 (F := Ideal) x1 (ix3 b g n) = val_main_v18 (F := Ideal) x1 (ix2 g n) := by
  rw [val_main_v35_apply, val_main_v33_apply]
  exact congrArg _ (funext fun a => by match a with | ⟨0, _⟩ => rfl | ⟨1, _⟩ => rfl)

/-- Table 0 spread along the elements (its second use). -/
theorem spread_t0b (b : Fin 1000000) (g : Fin 13) (n : Fin 10) :
    val_main_v40 (F := Ideal) x1 (ix3 b g n) = val_main_v15 (F := Ideal) x1 (ix2 g n) := by
  rw [val_main_v40_apply, val_main_v38_apply]
  exact congrArg _ (funext fun a => by match a with | ⟨0, _⟩ => rfl | ⟨1, _⟩ => rfl)

/-- Table 1 spread along the elements (its second use). -/
theorem spread_t1b (b : Fin 1000000) (g : Fin 13) (n : Fin 10) :
    val_main_v44 (F := Ideal) x1 (ix3 b g n) = val_main_v18 (F := Ideal) x1 (ix2 g n) := by
  rw [val_main_v44_apply, val_main_v42_apply]
  exact congrArg _ (funext fun a => by match a with | ⟨0, _⟩ => rfl | ⟨1, _⟩ => rfl)

/-! ## The two derivative slabs -/

theorem slab0 (b : Fin 1000000) (g : Fin 13) (n : Fin 10) :
    val_main_v37 (F := Ideal) x0 x1 x2 x3 x4 x5 (ix3 b g n)
      = nx (X x0) (fun g n => x1 (ix3 0 n g)) (fun g n => x1 (ix3 1 n g)) (Wt x2) (Wt x3) (Wt x4) (Wt x5) b 0 g n := by
  rw [val_main_v37_apply, val_main_v32_apply, val_main_v36_apply, spread_a, spread_t0a, spread_b, spread_t1a,
    val_main_v19_apply, val_main_v22_apply, val_main_v21_apply, j11, j21, inv_entry, tbl0, tbl1]
  unfold nx
  rw [if_pos (by decide)]
  rfl

theorem slab1 (b : Fin 1000000) (g : Fin 13) (n : Fin 10) :
    val_main_v46 (F := Ideal) x0 x1 x2 x3 x4 x5 (ix3 b g n)
      = nx (X x0) (fun g n => x1 (ix3 0 n g)) (fun g n => x1 (ix3 1 n g)) (Wt x2) (Wt x3) (Wt x4) (Wt x5) b 1 g n := by
  rw [val_main_v46_apply, val_main_v41_apply, val_main_v45_apply, spread_c, spread_t0b, spread_d, spread_t1b,
    val_main_v25_apply, val_main_v27_apply, val_main_v24_apply, j12, j22, inv_entry, tbl0, tbl1]
  unfold nx
  rw [if_neg (by decide)]
  rfl

/-! ## Stacked along axis 1 -/

/-- The derivatives array of the reference is `nxArr` of its arguments. -/
theorem nx_eq : val_main_v49 (F := Ideal) x0 x1 x2 x3 x4 x5 = nxArr x0 x1 x2 x3 x4 x5 := by
  funext i
  obtain ⟨b, s, g, n, rfl⟩ : ∃ (b : Fin 1000000) (s : Fin 2) (g : Fin 13) (n : Fin 10), i = ix4 b s g n :=
    ⟨i 0, i 1, i 2, i 3, eq_ix4 i⟩
  unfold val_main_v49
  show _ = nx (X x0) (fun g n => x1 (ix3 0 n g)) (fun g n => x1 (ix3 1 n g)) (Wt x2) (Wt x3) (Wt x4) (Wt x5) b s g n
  match s with
  | ⟨0, _⟩ =>
    refine (concatenate_pair_apply_left (t := S1000000x2x13x10) (s₁ := S1000000x1x13x10) (s₂ := S1000000x1x13x10)
      (1 : Fin S1000000x2x13x10.rank) _ _ _
      (ix4 b (0 : Fin 2) g n : S1000000x2x13x10.Idx) rfl (ix4 b (0 : Fin 1) g n : S1000000x1x13x10.Idx) (fun a => by
        match a with | ⟨0, _⟩ => rfl | ⟨1, _⟩ => rfl | ⟨2, _⟩ => rfl | ⟨3, _⟩ => rfl)).trans ?_
    rw [val_main_v47_apply]
    refine Eq.trans (congrArg _ (funext fun a => by match a with | ⟨0, _⟩ => rfl | ⟨1, _⟩ => rfl | ⟨2, _⟩ => rfl)) (slab0 x0 x1 x2 x3 x4 x5 b g n)
  | ⟨1, _⟩ =>
    refine (concatenate_pair_apply_right (t := S1000000x2x13x10) (s₁ := S1000000x1x13x10) (s₂ := S1000000x1x13x10)
      (1 : Fin S1000000x2x13x10.rank) _ _ _
      (ix4 b (1 : Fin 2) g n : S1000000x2x13x10.Idx) rfl rfl (ix4 b (0 : Fin 1) g n : S1000000x1x13x10.Idx) (fun a ha => by
        match a with | ⟨0, _⟩ => rfl | ⟨1, _⟩ => exact absurd rfl ha | ⟨2, _⟩ => rfl | ⟨3, _⟩ => rfl) rfl).trans ?_
    rw [val_main_v48_apply]
    refine Eq.trans (congrArg _ (funext fun a => by match a with | ⟨0, _⟩ => rfl | ⟨1, _⟩ => rfl | ⟨2, _⟩ => rfl)) (slab1 x0 x1 x2 x3 x4 x5 b g n)

/-- The determinant array of the reference is `absDetArr` of its arguments. -/
theorem absDet_eq : val_main_v50 (F := Ideal) x0 x2 x3 x4 x5 = absDetArr x0 x2 x3 x4 x5 := by
  funext i
  obtain ⟨b, g, rfl⟩ : ∃ (b : Fin 1000000) (g : Fin 13), i = ix2 b g := ⟨i 0, i 1, eq_ix2 i⟩
  rw [val_main_v50_apply, det_entry]
  rfl

end Cert.ReferenceIdeal.RefValue

end
-- ==== Proof.lean ====
/-
  Both programs compute, for every element `b` of a mesh of a million elements and every quadrature point `g`,
  the 2×2 Jacobian `j11 j12 j21 j22` of the element's ten nodes (four contractions over the nodes), its
  determinant `j11·j22 − j21·j12`, the reciprocal `1/det`, the inverse Jacobian's rows `(j11, −j21)/det` and
  `(−j12, j22)/det`, the physical derivatives
      nx[b,0,g,n] = (j11/det)·N1[g,n] + (−j21/det)·N2[g,n],   nx[b,1,g,n] = (−j12/det)·N1[g,n] + (j22/det)·N2[g,n]
  of the two reference tables, and `|det|` (Proof/Spec.lean states these once).

  The kernel does it 400 elements at a time: each of its 2500 grid points stages a slab of coordinates and the six
  small tables, which the host transposed beforehand, and writes the two result slabs; a slab's entry reads its own
  element's coordinates only, so the slabs are restrictions of whole-array functions and cover the results
  (Proof/KernelBlock.lean: one block; Proof/KernelArray.lean: the arrays and the run). The reference does the same
  arithmetic on whole arrays, spelling the negations as negations where the kernel subtracts from zero, and stacks
  the two derivative slabs (Proof/Reference.lean). On the extended reals `0 − a = −a` for every `a`, the
  contractions are the same finite sums in the same order, and every other step is the same operation on the same
  operands, so the two results agree whatever the inputs: the precondition is not used. The idealization rewrote
  nothing, so its preservation claim is trivial; the three frames are the generated runs.
-/
import proofs.«121779_j16793322127488_2_alg».proof.Defs
import proofs.«121779_j16793322127488_2_alg».proof.Proof.Gen.Kernel
import proofs.«121779_j16793322127488_2_alg».proof.Proof.Gen.Kernel.Skeleton
import proofs.«121779_j16793322127488_2_alg».proof.Proof.Gen.Kernel.Launch
import proofs.«121779_j16793322127488_2_alg».proof.Proof.Gen.Kernel.Points
import proofs.«121779_j16793322127488_2_alg».proof.Proof.Gen.Kernel.Frame
import proofs.«121779_j16793322127488_2_alg».proof.Proof.Gen.KernelIdeal
import proofs.«121779_j16793322127488_2_alg».proof.Proof.Gen.KernelIdeal.Skeleton
import proofs.«121779_j16793322127488_2_alg».proof.Proof.Gen.KernelIdeal.Launch
import proofs.«121779_j16793322127488_2_alg».proof.Proof.Gen.KernelIdeal.Points
import proofs.«121779_j16793322127488_2_alg».proof.Proof.Gen.KernelIdeal.Frame
import proofs.«121779_j16793322127488_2_alg».proof.Proof.Gen.ReferenceIdeal
import proofs.«121779_j16793322127488_2_alg».proof.Proof.Gen.Pre_finite_inputs
import proofs.«121779_j16793322127488_2_alg».proof.Proof.Gen.KernelIdeal.Value
import proofs.«121779_j16793322127488_2_alg».proof.Proof.Gen.ReferenceIdeal.Run
import proofs.«121779_j16793322127488_2_alg».proof.Proof.Gen.ReferenceIdeal.Read
import proofs.«121779_j16793322127488_2_alg».proof.Proof.KernelArray
import proofs.«121779_j16793322127488_2_alg».proof.Proof.Reference
import Idealize.ShloMosaic.Adequacy
import Idealize.ShloMosaic.Init

noncomputable section

namespace Cert.Proof

open Idealize.ShloMosaic Idealize.ShloMosaic.TcCoe Idealize.SL.Sem Cert.Jacobian

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization changed no operation. -/
theorem preserves : Cert.preserves_Kernel_KernelIdeal := trivial

/-- From memories agreeing on the six arguments both programs end with the derivatives at `nxArr` and the
    absolute determinants at `absDetArr` of those arguments. -/
theorem algebraic : Cert.algebraic_KernelIdeal_ReferenceIdeal := by
  intro m ρ m' ρ' _ hagree
  refine ⟨fun c => nxArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => absDetArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v49_eq, Cert.ReferenceIdeal.RefValue.nx_eq, (hagree c).1, (hagree c).2.1,
      (hagree c).2.2.1, (hagree c).2.2.2.1, (hagree c).2.2.2.2.1, (hagree c).2.2.2.2.2]
  · rw [Cert.ReferenceIdeal.Read.val_main_v50_eq, Cert.ReferenceIdeal.RefValue.absDet_eq, (hagree c).1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
